-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x1 : Shape := ⟨2, ![8388608, 1]⟩
abbrev S10 : Shape := ⟨1, ![10]⟩
abbrev S_ : Shape := ⟨0, ![]⟩

class Facts : Prop where
  bcast_S_S8388608x1 : S_.BroadcastsInDim S8388608x1 (![] : Fin 0 → Fin S8388608x1.rank)
  reducesTo_S8388608x1_S_d0_1 : S8388608x1.ReducesTo [0, 1] S_
  h_S_ : 0 < S_.numel
  bcast_S_S10 : S_.BroadcastsInDim S10 (![] : Fin 0 → Fin S10.rank)
  reducesTo_S10_S_d0 : S10.ReducesTo [0] S_

variable [Facts]

def fn {F : FTy → Type} [FloatOps F] (main_arg0 : FVec F S8388608x1 .f32) (main_arg1 : FVec F S8388608x1 .f32) (main_arg2 : FVec F S10 .f32) : IVec S_ 1 :=
  let main_v0 : FVec F S8388608x1 .f32 := Host.absf main_arg0
  let main_cst : FVec F S_ .f32 := constant S_ .f32 0x7F800000#32
  let main_v1 : FVec F S8388608x1 .f32 := broadcastInDim S8388608x1 ![] bcast_S_S8388608x1 main_cst
  let main_v2 : IVec S8388608x1 1 := cmpf .olt main_v0 main_v1
  let main_c : IVec S_ 1 := constantI S_ 1 1#1
  let main_v3 : IVec S_ 1 := (fun x v => Host.reduce IntOp.andi x v reducesTo_S8388608x1_S_d0_1 h_S_) main_v2 main_c
  let main_v4 : FVec F S8388608x1 .f32 := Host.absf main_arg1
  let main_cst_0 : FVec F S_ .f32 := constant S_ .f32 0x7F800000#32
  let main_v5 : FVec F S8388608x1 .f32 := broadcastInDim S8388608x1 ![] bcast_S_S8388608x1 main_cst_0
  let main_v6 : IVec S8388608x1 1 := cmpf .olt main_v4 main_v5
  let main_c_1 : IVec S_ 1 := constantI S_ 1 1#1
  let main_v7 : IVec S_ 1 := (fun x v => Host.reduce IntOp.andi x v reducesTo_S8388608x1_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  main_v13
-- ==== Kernel.lean ====
abbrev S8388608x1 : Shape := ⟨2, ![8388608, 1]⟩
abbrev S10 : Shape := ⟨1, ![10]⟩
abbrev S65536x128 : Shape := ⟨2, ![65536, 128]⟩
abbrev S2x2x128 : Shape := ⟨3, ![2, 2, 128]⟩
abbrev S8192x128 : Shape := ⟨2, ![8192, 128]⟩
abbrev S1x2x128 : Shape := ⟨3, ![1, 2, 128]⟩
abbrev S2x128 : Shape := ⟨2, ![2, 128]⟩
abbrev S1x8192x128 : Shape := ⟨3, ![1, 8192, 128]⟩
abbrev S1 : Shape := ⟨1, ![1]⟩
abbrev S1x1x1 : Shape := ⟨3, ![1, 1, 1]⟩
abbrev S1x1 : Shape := ⟨2, ![1, 1]⟩
abbrev S1x118 : Shape := ⟨2, ![1, 118]⟩
abbrev S1x128 : Shape := ⟨2, ![1, 128]⟩
abbrev S1x1x10 : Shape := ⟨3, ![1, 1, 10]⟩
abbrev S_ : Shape := ⟨0, ![]⟩

abbrev nBuf : Space → Nat
  | .hbm => 61
  | .vmem => 6
  | .smem => 0
  | _ => 0

abbrev bufTy : (tb : Table) → Fin (tcTables nBuf tb) → BufTy
  | .hbm, ⟨0, _⟩ => ⟨S8388608x1, .f32⟩
  | .hbm, ⟨1, _⟩ => ⟨S8388608x1, .f32⟩
  | .hbm, ⟨2, _⟩ => ⟨S10, .f32⟩
  | .hbm, ⟨3, _⟩ => ⟨S65536x128, .f32⟩
  | .hbm, ⟨4, _⟩ => ⟨S65536x128, .f32⟩
  | .hbm, ⟨5, _⟩ => ⟨S2x2x128, .f32⟩
  | .hbm, ⟨6, _⟩ => ⟨S1x1x10, .f32⟩
  | .hbm, ⟨7, _⟩ => ⟨S10, .f32⟩
  | .hbm, ⟨8, _⟩ => ⟨S1x1x10, .f32⟩
  | .hbm, ⟨9, _⟩ => ⟨S10, .f32⟩
  | .hbm, ⟨10, _⟩ => ⟨S10, .f32⟩
  | .hbm, ⟨11, _⟩ => ⟨S1x1x10, .f32⟩
  | .hbm, ⟨12, _⟩ => ⟨S10, .f32⟩
  | .hbm, ⟨13, _⟩ => ⟨S1x1x10, .f32⟩
  | .hbm, ⟨14, _⟩ => ⟨S10, .f32⟩
  | .hbm, ⟨15, _⟩ => ⟨S10, .f32⟩
  | .hbm, ⟨16, _⟩ => ⟨S_, .f32⟩
  | .hbm, ⟨17, _⟩ => ⟨S10, .f32⟩
  | .hbm, ⟨18, _⟩ => ⟨S10, .i1⟩
  | .hbm, ⟨19, _⟩ => ⟨S_, .f32⟩
  | .hbm, ⟨20, _⟩ => ⟨S10, .f32⟩
  | .hbm, ⟨21, _⟩ => ⟨S10, .f32⟩
  | .hbm, ⟨22, _⟩ => ⟨S_, .f32⟩
  | .hbm, ⟨23, _⟩ => ⟨S10, .f32⟩
  | .hbm, ⟨24, _⟩ => ⟨S10, .f32⟩
  | .hbm, ⟨25, _⟩ => ⟨S10, .f32⟩
  | .hbm, ⟨26, _⟩ => ⟨S10, .f32⟩
  | .hbm, ⟨27, _⟩ => ⟨S10, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S10, .f32⟩
  | .hbm, ⟨35, _⟩ => ⟨S10, .i1⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S10, .f32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .f32⟩
  | .hbm, ⟨44, _⟩ => ⟨S_, .f32⟩
  | .hbm, ⟨45, _⟩ => ⟨S_, .f32⟩
  | .hbm, ⟨46, _⟩ => ⟨S10, .f32⟩
  | .hbm, ⟨47, _⟩ => ⟨S10, .f32⟩
  | .hbm, ⟨48, _⟩ => ⟨S_, .f32⟩
  | .hbm, ⟨49, _⟩ => ⟨S_, .i1⟩
  | .hbm, ⟨50, _⟩ => ⟨S_, .f32⟩
  | .hbm, ⟨51, _⟩ => ⟨S10, .f32⟩
  | .hbm, ⟨52, _⟩ => ⟨S10, .f32⟩
  | .hbm, ⟨53, _⟩ => ⟨S_, .f32⟩
  | .hbm, ⟨54, _⟩ => ⟨S10, .f32⟩
  | .hbm, ⟨55, _⟩ => ⟨S10, .f32⟩
  | .hbm, ⟨56, _⟩ => ⟨S10, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x2x128, .f32⟩
  | .local _ .vmem, ⟨5, _⟩ => ⟨S1x2x128, .f32⟩
  | _, _ => ⟨S8388608x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8388608x1_S65536x128 : S8388608x1.ShapeCasts S65536x128
  inb_S1x2x128_S1x2x128_0_0_0 : ∀ a, (![0, 0, 0] : Fin 3 → Nat) a + S1x2x128.size a ≤ S1x2x128.size a
  h_S1x2x128 : 0 < S1x2x128.numel
  shapeCasts_S1x2x128_S2x128 : S1x2x128.ShapeCasts S2x128
  shapeCasts_S2x128_S1x2x128 : S2x128.ShapeCasts S1x2x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  natLt_1_32 : 1 < 32
  shapeCasts_S8192x128_S1x8192x128 : S8192x128.ShapeCasts S1x8192x128
  reduces_S1x8192x128_S1 : S1x8192x128.Reduces [1, 2] S1
  shapeCasts_S1_S1x1x1 : S1.ShapeCasts S1x1x1
  inpos_S1x1x1_p0_0_0 : ∀ a, (![0, 0, 0] : Fin 3 → Nat) a < S1x1x1.size a
  concatenates_S1x1_S1x1_S1x1_S1x1_S1x1_S1x1_S1x1_S1x1_S1x1_S1x1_S1x118_S1x128_d1 : Shape.Concatenates [S1x1, S1x1, S1x1, S1x1, S1x1, S1x1, S1x1, S1x1, S1x1, S1x1, S1x118] S1x128 1
  concatenates_S1x128_S1x128_S2x128_d0 : Shape.Concatenates [S1x128, S1x128] S2x128 0
  slices_S2x2x128_S1x1x10_0_0_0 : S2x2x128.Slices ![0, 0, 0] S1x1x10
  shapeCasts_S1x1x10_S10 : S1x1x10.ShapeCasts S10
  slices_S2x2x128_S1x1x10_1_0_0 : S2x2x128.Slices ![1, 0, 0] S1x1x10
  slices_S2x2x128_S1x1x10_0_1_0 : S2x2x128.Slices ![0, 1, 0] S1x1x10
  slices_S2x2x128_S1x1x10_1_1_0 : S2x2x128.Slices ![1, 1, 0] S1x1x10
  bcast_S_S10 : S_.BroadcastsInDim S10 (![] : Fin 0 → Fin S10.rank)
  reducesTo_S10_S_d0 : S10.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S65536x128.size a
  hwx0_1 : ∀ i : grid0.Coords, EltTy.bits .f32 = 32 ∨ (Rect.block (s := S65536x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x128.size a ≤ S2x2x128.size a
  hwx0_2 : ∀ i : grid0.Coords, EltTy.bits .f32 = 32 ∨ (Rect.block (s := S2x2x128) S1x2x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x1 : Shape := ⟨2, ![8388608, 1]⟩
abbrev S10 : Shape := ⟨1, ![10]⟩
abbrev S_ : Shape := ⟨0, ![]⟩
abbrev S8388608 : Shape := ⟨1, ![8388608]⟩
abbrev S8388608x1x1 : Shape := ⟨3, ![8388608, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S8388608x1, .f32⟩
  | .hbm, ⟨1, _⟩ => ⟨S8388608x1, .f32⟩
  | .hbm, ⟨2, _⟩ => ⟨S10, .f32⟩
  | .hbm, ⟨3, _⟩ => ⟨S8388608x1, .f32⟩
  | .hbm, ⟨4, _⟩ => ⟨S8388608x1, .f32⟩
  | .hbm, ⟨5, _⟩ => ⟨S_, .f32⟩
  | .hbm, ⟨6, _⟩ => ⟨S8388608x1, .f32⟩
  | .hbm, ⟨7, _⟩ => ⟨S8388608x1, .f32⟩
  | .hbm, ⟨8, _⟩ => ⟨S8388608x1, .f32⟩
  | .hbm, ⟨9, _⟩ => ⟨S_, .f32⟩
  | .hbm, ⟨10, _⟩ => ⟨S8388608x1, .f32⟩
  | .hbm, ⟨11, _⟩ => ⟨S8388608x1, .f32⟩
  | .hbm, ⟨12, _⟩ => ⟨S_, .f32⟩
  | .hbm, ⟨13, _⟩ => ⟨S8388608x1, .f32⟩
  | .hbm, ⟨14, _⟩ => ⟨S8388608x1, .f32⟩
  | .hbm, ⟨15, _⟩ => ⟨S8388608x1, .f32⟩
  | .hbm, ⟨16, _⟩ => ⟨S8388608x1, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8388608x1, .i32⟩
  | .hbm, ⟨21, _⟩ => ⟨S8388608x1, .i32⟩
  | .hbm, ⟨22, _⟩ => ⟨S_, .i32⟩
  | .hbm, ⟨23, _⟩ => ⟨S8388608x1, .i32⟩
  | .hbm, ⟨24, _⟩ => ⟨S8388608x1, .i32⟩
  | .hbm, ⟨25, _⟩ => ⟨S_, .f32⟩
  | .hbm, ⟨26, _⟩ => ⟨S10, .f32⟩
  | .hbm, ⟨27, _⟩ => ⟨S8388608, .i32⟩
  | .hbm, ⟨28, _⟩ => ⟨S_, .i32⟩
  | .hbm, ⟨29, _⟩ => ⟨S8388608, .i32⟩
  | .hbm, ⟨30, _⟩ => ⟨S8388608, .i1⟩
  | .hbm, ⟨31, _⟩ => ⟨S_, .i32⟩
  | .hbm, ⟨32, _⟩ => ⟨S8388608, .i32⟩
  | .hbm, ⟨33, _⟩ => ⟨S8388608, .i32⟩
  | .hbm, ⟨34, _⟩ => ⟨S8388608, .i32⟩
  | .hbm, ⟨35, _⟩ => ⟨S8388608x1, .i32⟩
  | .hbm, ⟨36, _⟩ => ⟨S_, .f32⟩
  | .hbm, ⟨37, _⟩ => ⟨S8388608, .f32⟩
  | .hbm, ⟨38, _⟩ => ⟨S10, .f32⟩
  | .hbm, ⟨39, _⟩ => ⟨S_, .f32⟩
  | .hbm, ⟨40, _⟩ => ⟨S10, .f32⟩
  | .hbm, ⟨41, _⟩ => ⟨S10, .i1⟩
  | .hbm, ⟨42, _⟩ => ⟨S_, .f32⟩
  | .hbm, ⟨43, _⟩ => ⟨S10, .f32⟩
  | .hbm, ⟨44, _⟩ => ⟨S10, .f32⟩
  | .hbm, ⟨45, _⟩ => ⟨S_, .f32⟩
  | .hbm, ⟨46, _⟩ => ⟨S10, .f32⟩
  | .hbm, ⟨47, _⟩ => ⟨S10, .f32⟩
  | .hbm, ⟨48, _⟩ => ⟨S10, .f32⟩
  | .hbm, ⟨49, _⟩ => ⟨S10, .f32⟩
  | .hbm, ⟨50, _⟩ => ⟨S10, .i32⟩
  | .hbm, ⟨51, _⟩ => ⟨S_, .i32⟩
  | .hbm, ⟨52, _⟩ => ⟨S_, .i32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S10, .f32⟩
  | .hbm, ⟨58, _⟩ => ⟨S10, .i1⟩
  | .hbm, ⟨59, _⟩ => ⟨S_, .f32⟩
  | .hbm, ⟨60, _⟩ => ⟨S10, .f32⟩
  | .hbm, ⟨61, _⟩ => ⟨S10, .f32⟩
  | .hbm, ⟨62, _⟩ => ⟨S10, .f32⟩
  | .hbm, ⟨63, _⟩ => ⟨S10, .f32⟩
  | .hbm, ⟨64, _⟩ => ⟨S_, .f32⟩
  | .hbm, ⟨65, _⟩ => ⟨S10, .f32⟩
  | .hbm, ⟨66, _⟩ => ⟨S10, .f32⟩
  | .hbm, ⟨67, _⟩ => ⟨S_, .f32⟩
  | .hbm, ⟨68, _⟩ => ⟨S_, .f32⟩
  | .hbm, ⟨69, _⟩ => ⟨S10, .f32⟩
  | .hbm, ⟨70, _⟩ => ⟨S10, .f32⟩
  | .hbm, ⟨71, _⟩ => ⟨S_, .f32⟩
  | .hbm, ⟨72, _⟩ => ⟨S_, .i1⟩
  | .hbm, ⟨73, _⟩ => ⟨S_, .i32⟩
  | .hbm, ⟨74, _⟩ => ⟨S8388608x1, .i32⟩
  | .hbm, ⟨75, _⟩ => ⟨S8388608x1, .i1⟩
  | .hbm, ⟨76, _⟩ => ⟨S_, .i32⟩
  | .hbm, ⟨77, _⟩ => ⟨S8388608x1, .i32⟩
  | .hbm, ⟨78, _⟩ => ⟨S8388608x1, .i32⟩
  | .hbm, ⟨79, _⟩ => ⟨S8388608x1, .i32⟩
  | .hbm, ⟨80, _⟩ => ⟨S8388608x1x1, .i32⟩
  | .hbm, ⟨81, _⟩ => ⟨S8388608x1, .f32⟩
  | .hbm, ⟨82, _⟩ => ⟨S_, .f32⟩
  | .hbm, ⟨83, _⟩ => ⟨S8388608x1, .f32⟩
  | .hbm, ⟨84, _⟩ => ⟨S8388608x1, .f32⟩
  | .hbm, ⟨85, _⟩ => ⟨S_, .f32⟩
  | .hbm, ⟨86, _⟩ => ⟨S8388608x1, .f32⟩
  | .hbm, ⟨87, _⟩ => ⟨S8388608x1, .f32⟩
  | .hbm, ⟨88, _⟩ => ⟨S8388608x1, .f32⟩
  | .hbm, ⟨89, _⟩ => ⟨S8388608x1, .f32⟩
  | .hbm, ⟨90, _⟩ => ⟨S_, .f32⟩
  | .hbm, ⟨91, _⟩ => ⟨S8388608x1, .f32⟩
  | .hbm, ⟨92, _⟩ => ⟨S8388608x1, .i1⟩
  | .hbm, ⟨93, _⟩ => ⟨S_, .f32⟩
  | .hbm, ⟨94, _⟩ => ⟨S8388608x1, .f32⟩
  | .hbm, ⟨95, _⟩ => ⟨S8388608x1, .f32⟩
  | .hbm, ⟨96, _⟩ => ⟨S8388608x1, .f32⟩
  | .hbm, ⟨97, _⟩ => ⟨S_, .f32⟩
  | .hbm, ⟨98, _⟩ => ⟨S8388608x1, .f32⟩
  | .hbm, ⟨99, _⟩ => ⟨S8388608x1, .f32⟩
  | .hbm, ⟨100, _⟩ => ⟨S_, .f32⟩
  | .hbm, ⟨101, _⟩ => ⟨S8388608x1, .f32⟩
  | .hbm, ⟨102, _⟩ => ⟨S8388608x1, .f32⟩
  | .hbm, ⟨103, _⟩ => ⟨S8388608x1, .f32⟩
  | .hbm, ⟨104, _⟩ => ⟨S8388608x1, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S8388608x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev main_v35 : Ref sig .tc := ⟨.hbm, 58, rfl⟩
abbrev main_cst_13 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_14 : Ref sig .tc := ⟨.hbm, 64, rfl⟩
abbrev main_v40 : Ref sig .tc := ⟨.hbm, 65, rfl⟩
abbrev main_v41 : Ref sig .tc := ⟨.hbm, 66, rfl⟩
abbrev main_cst_15 : Ref sig .tc := ⟨.hbm, 67, rfl⟩
abbrev main_call2_v0 : Ref sig .tc := ⟨.hbm, 68, rfl⟩
abbrev main_call2_v1 : Ref sig .tc := ⟨.hbm, 69, rfl⟩
abbrev main_v42 : Ref sig .tc := ⟨.hbm, 70, rfl⟩
abbrev main_cst_16 : Ref sig .tc := ⟨.hbm, 71, rfl⟩
abbrev main_v43 : Ref sig .tc := ⟨.hbm, 72, rfl⟩
abbrev main_c_17 : Ref sig .tc := ⟨.hbm, 73, rfl⟩
abbrev main_v44 : Ref sig .tc := ⟨.hbm, 74, rfl⟩
abbrev main_v45 : Ref sig .tc := ⟨.hbm, 75, rfl⟩
abbrev main_c_18 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_19 : Ref sig .tc := ⟨.hbm, 82, rfl⟩
abbrev main_v51 : Ref sig .tc := ⟨.hbm, 83, rfl⟩
abbrev main_v52 : Ref sig .tc := ⟨.hbm, 84, rfl⟩
abbrev main_cst_20 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_21 : Ref sig .tc := ⟨.hbm, 90, rfl⟩
abbrev main_v57 : Ref sig .tc := ⟨.hbm, 91, rfl⟩
abbrev main_v58 : Ref sig .tc := ⟨.hbm, 92, rfl⟩
abbrev main_cst_22 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_23 : Ref sig .tc := ⟨.hbm, 97, rfl⟩
abbrev main_v62 : Ref sig .tc := ⟨.hbm, 98, rfl⟩
abbrev main_v63 : Ref sig .tc := ⟨.hbm, 99, rfl⟩
abbrev main_cst_24 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_25 : Ref sig .tc := ⟨.hbm, 105, rfl⟩
abbrev main_v68 : Ref sig .tc := ⟨.hbm, 106, rfl⟩
abbrev main_cst_26 : Ref sig .tc := ⟨.hbm, 107, rfl⟩
abbrev main_v69 : Ref sig .tc := ⟨.hbm, 108, rfl⟩

abbrev nD : Nat := 1
abbrev τ : Topo := Topo.v7x

variable {F : FTy → Type} [FloatOps F]

class Facts₀ : Prop where
  bcast_S_S8388608x1 : S_.BroadcastsInDim S8388608x1 (![] : Fin 0 → Fin S8388608x1.rank)
  bcast_S_S10 : S_.BroadcastsInDim S10 (![] : Fin 0 → Fin S10.rank)
  shapeCasts_S8388608x1_S8388608 : S8388608x1.ShapeCasts S8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  natLt_1_32 : 1 < 32
  reducesTo_S10_S_d0 : S10.ReducesTo [0] S_
  h_S_ : 0 < S_.numel
  bcast_S8388608x1_S8388608x1x1_0_1 : S8388608x1.BroadcastsInDim S8388608x1x1 (![0, 1] : Fin 2 → Fin S8388608x1x1.rank)
  reducesTo_S8388608x1_S_d0_1 : S8388608x1.ReducesTo [0, 1] S_
  scatter_S10_S8388608x1_S8388608_n_0_0_1_wf : ScatterDims.WF S10 S8388608x1 S8388608 [] [0] [0] 1
  gather_S10_S8388608x1x1_S8388608x1_n_0_n_n_0_2_1_wf : GatherDims.WF S10 S8388608x1x1 S8388608x1 [] [0] [] [0] [] 2 ![1]

variable [Facts₀]

def scatter_S10_S8388608x1_S8388608_n_0_0_1 : ScatterDims S10 S8388608x1 S8388608 where
  updateWindowDims := []
  insertedWindowDims := [0]
  scatterDimsToOperandDims := [0]
  indexVectorDim := 1
  wf := scatter_S10_S8388608x1_S8388608_n_0_0_1_wf
def gather_S10_S8388608x1x1_S8388608x1_n_0_n_n_0_2_1 : GatherDims S10 S8388608x1x1 S8388608x1 where
  offsetDims := []
  collapsedSliceDims := [0]
  operandBatchingDims := []
  startIndicesBatchingDims := []
  startIndexMap := [0]
  indexVectorDim := 2
  sliceSizes := ![1]
  wf := gather_S10_S8388608x1x1_S8388608x1_n_0_n_n_0_2_1_wf

class Facts : Prop extends Facts₀ where

variable [Facts]
-- ==== Proof.KernelCases.lean ====
/-
  What the kernel's body leaves in the output's staging buffer, case by case.

  The body computes, from the two 8192×128 blocks of angles it is given, a 2×128 TILE (row 0: how many of the block's
  pairs fall in each of the ten bins; row 1: each bin's summed loss; the other lanes zero) and adds it to what the
  output block holds. At the first point of a core's four the block is first set to zero. Both facts are read off
  the body's stores as the run found them: one covering store whose payload is the sum, in the first case over an
  earlier covering store of zeros that the body reads back.
-/
import proofs.«116623_j7164005449995_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The 2×128 tile one pair of blocks contributes: row 0 the ten bin counts, row 1 the ten bins' summed losses,
    lanes 10 … 127 zero. -/
def tile (x0 x1 : Vec F S8192x128 .f32) : FVec F S2x128 .f32 :=
  k0_pay31 (k0_pay5 x0 x1) (k0_pay6 x0 x1) (k0_pay9 (k0_pay8 x0 x1)) (k0_pay10 (k0_pay6 x0 x1) (k0_pay7 x0 x1))
    (k0_pay12 (k0_pay5 x0 x1)) (k0_pay13 (k0_pay5 x0 x1) (k0_pay6 x0 x1))
    (k0_pay15 (k0_pay5 x0 x1)) (k0_pay16 (k0_pay5 x0 x1) (k0_pay6 x0 x1))
    (k0_pay18 (k0_pay5 x0 x1)) (k0_pay20 (k0_pay19 (k0_pay5 x0 x1) (k0_pay6 x0 x1)))
    (k0_pay22 (k0_pay5 x0 x1)) (k0_pay23 (k0_pay5 x0 x1) (k0_pay6 x0 x1))
    (k0_pay25 (k0_pay5 x0 x1)) (k0_pay26 (k0_pay5 x0 x1) (k0_pay6 x0 x1))
    (k0_pay28 (k0_pay5 x0 x1)) (k0_pay29 (k0_pay5 x0 x1) (k0_pay6 x0 x1)) k0_pay30

/-- At a point that is not the first of its core, the body leaves in the output's staging buffer, which held `xo`,
    the tile of the point's two blocks added to `xo`: its one covering store's payload, whose loads read whole buffers. -/
theorem out_B (c : Dev nD) (i : grid0.Coords) (a2 : Memref sig .tc .vmem S8192x128 .f32) (h2 : a2.IsWhole)
    (a3 : Memref sig .tc .vmem S8192x128 .f32) (h3 : a3.IsWhole) (a4 : Memref sig .tc .vmem S1x2x128 .f32) (h4 : a4.IsWhole)
    (hc : ¬cond0_0 i) (x0 x1 : Vec F S8192x128 .f32) (xo : Vec F S1x2x128 .f32) :
    out0_B_2 c i a2 h2 a3 h3 a4 h4 hc x0 x1 xo = k0_pay1 (tile x0 x1) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S8192x128) hz2,
    View.ld_unit_zero (S := S1x2x128) hz3]
  rfl

/-- At a core's first point the body first stores the zero tile, reads it back, and leaves the tile of the point's
    two blocks added to it. -/
theorem out_A (c : Dev nD) (i : grid0.Coords) (a2 : Memref sig .tc .vmem S8192x128 .f32) (h2 : a2.IsWhole)
    (a3 : Memref sig .tc .vmem S8192x128 .f32) (h3 : a3.IsWhole) (a4 : Memref sig .tc .vmem S1x2x128 .f32) (h4 : a4.IsWhole)
    (hc : cond0_0 i) (x0 x1 : Vec F S8192x128 .f32) :
    out0_A_2 c i a2 h2 a3 h3 a4 h4 hc x0 x1 = k0_pay1 (tile x0 x1) k0_pay2 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x2x128) hz3, View.readCov_unit_zero (S := S1x2x128) _ hz3]
  simp only [View.readAt_eq_ld, h2.read_unread, h3.read_unread, View.ld_unit_zero (S := S8192x128) hz2]
  rfl

end Cert.KernelIdeal.Tile

end
-- ==== Proof.BinnedLoss.lean ====
/-
  The loss both programs compute, as mathematics on the extended reals.

  Every pair of angles (p, t) has a BIN, the word
      bin p t = min 9 (max 0 (toInt ⌊ min |p - t| (360 - |p - t|) / 180 · 10 ⌋)),
  one of ten, and a smooth-L1 LOSS
      loss p t = if |p - t| < 1 then (1/2 · (p - t) · (p - t)) / 1 else |p - t| - 1/2.
  From the ten bin COUNTS and the ten running accumulators a per-bin WEIGHT is formed
  (`weight`): the accumulator of a non-empty bin is refreshed to 0.9 · acc + 0.1 · count, n is
  the number of non-empty bins, the raw weight of a bin with a positive accumulator is
  N / (max n 1 · max acc 1e-30) and 0 otherwise, it is replaced by 1 when no bin is non-empty,
  and raised to the power 3/4.  The result is the weighted mean  (Σ_e loss_e · weight(bin_e)) / N.
  This file only names these functions; it imports no program.
-/
import Idealize.ShloMosaic.PureOps.Ideal
import Idealize.ShloMosaic.PureOps.Ideal.Laws
import Idealize.ShloMosaic.Lib.ValueIdx

noncomputable section

namespace Cert.BinnedLoss

open Idealize.ShloMosaic Idealize.ShloMosaic.ValueIdx

/-- The ten bins, and a scalar. -/
abbrev V10 : Shape := ⟨1, ![10]⟩
abbrev Sc : Shape := ⟨0, ![]⟩

/-- `|p - t|`. -/
def gap (p t : EReal) : EReal := max (p - t) (-(p - t))

/-- The bin of a pair of angles: the gap folded into [0, 180], scaled to [0, 10], floored,
    converted to a word and clamped to 0 … 9. -/
def bin (p t : EReal) : BitVec 32 :=
  IntOp.minsi 9#32 (IntOp.maxsi 0#32 (Ideal.fptosi 32 (Ideal.liftRound Int.floor
    (Ideal.div (min (gap p t) (Ideal.ofBits .f32 0x43B40000#32 - gap p t)) (Ideal.ofBits .f32 0x43340000#32)
      * Ideal.ofBits .f32 0x41200000#32))))

/-- The smooth-L1 loss of a pair of angles. -/
def loss (p t : EReal) : EReal :=
  Scalar.select (Ideal.cmp .olt (gap p t) (Ideal.ofBits .f32 0x3F800000#32))
    (Ideal.div (Ideal.ofBits .f32 0x3F000000#32 * (p - t) * (p - t)) (Ideal.ofBits .f32 0x3F800000#32))
    (gap p t - Ideal.ofBits .f32 0x3F000000#32)

/-- The indicator of "word `w` is bin `b`" as an extended real: 1 or 0. -/
def ind (w b : BitVec 32) : EReal := ((((IntOp.cmpi .eq w b).setWidth 32).toInt : ℝ) : EReal)

section weights

variable (hb : Sc.BroadcastsInDim V10 (![] : Fin 0 → Fin V10.rank)) (hr : V10.ReducesTo [0] Sc) (h0 : 0 < Sc.numel)
  (h132 : 1 < 32)

/-- Which bins are non-empty. -/
def nonempty (cnt : FVec Ideal V10 .f32) : IVec V10 1 :=
  cmpf .ogt cnt (broadcastInDim V10 ![] hb (constant (F := Ideal) Sc .f32 0x00000000#32))

/-- The number of non-empty bins, as a float scalar. -/
def nBins (cnt : FVec Ideal V10 .f32) : FVec Ideal Sc .f32 :=
  sitofp .f32 (Host.reduce IntOp.addi (extui 32 (nonempty hb cnt) h132) (constantI Sc 32 0#32) hr h0)

/-- The refreshed accumulators. -/
def accNew (cnt acc : FVec Ideal V10 .f32) : FVec Ideal V10 .f32 :=
  select (nonempty hb cnt)
    (addf (mulf (broadcastInDim V10 ![] hb (constant (F := Ideal) Sc .f32 0x3F666666#32)) acc)
      (mulf (broadcastInDim V10 ![] hb (constant (F := Ideal) Sc .f32 0x3DCCCCCD#32)) cnt)) acc

/-- The raw per-bin weight. -/
def rawWeight (cnt acc : FVec Ideal V10 .f32) : FVec Ideal V10 .f32 :=
  select (cmpf .ogt (accNew hb cnt acc) (broadcastInDim V10 ![] hb (constant (F := Ideal) Sc .f32 0x00000000#32)))
    (Host.divf (broadcastInDim V10 ![] hb (constant (F := Ideal) Sc .f32 0x4B000000#32))
      (mulf (broadcastInDim V10 ![] hb (maximumf (nBins hb hr h0 h132 cnt) (constant (F := Ideal) Sc .f32 0x3F800000#32)))
        (maximumf (accNew hb cnt acc) (broadcastInDim V10 ![] hb (constant (F := Ideal) Sc .f32 0x0DA24260#32)))))
    (broadcastInDim V10 ![] hb (id (constant (F := Ideal) Sc .f32 0x00000000#32)))

/-- Whether any bin is non-empty. -/
def anyBin (cnt : FVec Ideal V10 .f32) : IVec Sc 1 :=
  cmpf .ogt (nBins hb hr h0 h132 cnt) (constant (F := Ideal) Sc .f32 0x00000000#32)

/-- The weight of bin `b`: the raw weight (1 when every bin is empty) to the power 3/4. -/
def weight (cnt acc : FVec Ideal V10 .f32) (b : V10.Idx) : EReal :=
  Ideal.pow (Scalar.select (anyBin hb hr h0 h132 cnt ix0) (rawWeight hb hr h0 h132 cnt acc b) (Ideal.ofBits .f32 0x3F800000#32))
    (Ideal.ofBits .f32 0x3F400000#32)

end weights

end Cert.BinnedLoss

end
-- ==== Proof.BinnedTotals.lean ====
/-
  The weighted mean of the losses, written in its two shapes.

  Over any finite family of pairs of angles (p j, t j):
    * counts        b = Σ_j [bin_j = b]                 — how many pairs fall in bin b,
    * lossSums      b = Σ_j [bin_j = b] · loss_j        — the losses of bin b added up,
    * meanByElements  = (0 + Σ_j loss_j · weight(bin_j)) / N   — every loss times the weight of its own bin,
    * meanByBins      = (0 + Σ_b weight b · lossSums b) / N     — every bin's weight times the bin's summed loss,
  the weights formed from `counts` and the accumulators (BinnedLoss.lean). That the two means are one number is
  proved elsewhere; here are only the names.
-/
import proofs.«116623_j7164005449995_2_alg».proof.Proof.BinnedLoss

noncomputable section

open scoped BigOperators

namespace Cert.BinnedLoss

open Idealize.ShloMosaic Idealize.ShloMosaic.ValueIdx

/-- Bin `b` of the ten as a word. -/
def word (b : V10.Idx) : BitVec 32 := BitVec.ofNat 32 (b 0).val

/-- A word as one of the ten bins (the words 0 … 9 are themselves). -/
def binIdx (w : BitVec 32) : V10.Idx := ix1 ⟨w.toNat % 10, Nat.mod_lt _ (by decide)⟩

variable {ι : Type} [Fintype ι]

/-- How many of the words are bin `b`. -/
def counts (w : ι → BitVec 32) : FVec Ideal V10 .f32 := fun b => ∑ j, ind (w j) (word b)

/-- The values of the family whose word is bin `b`, added up. -/
def lossSums (w : ι → BitVec 32) (x : ι → EReal) : FVec Ideal V10 .f32 := fun b => ∑ j, ind (w j) (word b) * x j

section means

variable (hb : Sc.BroadcastsInDim V10 (![] : Fin 0 → Fin V10.rank)) (hr : V10.ReducesTo [0] Sc) (h0 : 0 < Sc.numel)
  (h132 : 1 < 32)

/-- The mean with every loss weighted by its own bin's weight. -/
def meanByElements (p t : ι → EReal) (acc : FVec Ideal V10 .f32) : EReal :=
  Ideal.div (Ideal.ofBits .f32 0x00000000#32
      + ∑ j, loss (p j) (t j) * weight hb hr h0 h132 (counts fun j => bin (p j) (t j)) acc (binIdx (bin (p j) (t j))))
    (Ideal.ofBits .f32 0x4B000000#32)

/-- The mean with every bin's summed loss weighted once. -/
def meanByBins (p t : ι → EReal) (acc : FVec Ideal V10 .f32) : EReal :=
  Ideal.div (Ideal.ofBits .f32 0x00000000#32
      + ∑ b : V10.Idx, weight hb hr h0 h132 (counts fun j => bin (p j) (t j)) acc b
          * lossSums (fun j => bin (p j) (t j)) (fun j => loss (p j) (t j)) b)
    (Ideal.ofBits .f32 0x4B000000#32)

end means

end Cert.BinnedLoss

end
-- ==== Proof.LibIdxSums.lean ====
/-
  Sums over the index sets of rank one and rank three, by coordinates.

  An index of a shape of rank k is the tuple of its k coordinates, so a sum over all indices is the iterated sum over
  the coordinates.  (The library's Lib/ValueIdx.lean has the rank-two case, `sum_idx2`; these are its neighbours, over
  any commutative additive monoid — the extended reals in particular, where no finiteness is needed.)
-/
import Idealize.ShloMosaic.Lib.ValueIdx

noncomputable section

open scoped BigOperators

namespace Idealize.ShloMosaic.IdxSums

open Idealize.ShloMosaic Idealize.ShloMosaic.ValueIdx

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.IdxSums

end
-- ==== Proof.KernelTile.lean ====
/-
  The tile one pair of blocks contributes, read entry by entry on the extended reals.

  The body turns each pair (p, t) of its two 8192×128 blocks into the pair's bin word and its smooth-L1 loss; for each
  of the ten bin words k it forms the 0/1 mask of the pairs in bin k, sums the mask over the whole block (the bin's
  count) and sums mask · loss over the whole block (the bin's summed loss); the ten counts, then 118 zeros, make row 0
  of a 2×128 tile, the ten summed losses, then 118 zeros, row 1. So at lane l < 10
      tile (0, l) = Σ_y [bin_y = l]            tile (1, l) = Σ_y [bin_y = l] · loss_y
  the sums over all 8192·128 pairs y of the block, and both rows are zero from lane 10 on.
-/
import proofs.«116623_j7164005449995_2_alg».proof.Proof.KernelCases
import proofs.«116623_j7164005449995_2_alg».proof.Proof.BinnedTotals
import proofs.«116623_j7164005449995_2_alg».proof.Proof.LibIdxSums
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.ValueIdx Idealize.ShloMosaic.IdxSums

namespace Cert.KernelIdeal.Tile

open Cert.KernelIdeal Cert.KernelIdeal.Gen Cert.BinnedLoss

/-- All the entries of an 8192×128 block added into one 1×1 cell, as the body spells it: the block seen as
    1×8192×128, summed over its two long axes into a 1-vector, that vector's entry broadcast to 1×1. -/
def cell (src : FVec Ideal S8192x128 .f32) : FVec Ideal S1x1 .f32 :=
  broadcast S1x1 (extractAt ![0, 0, 0] (shapeCast S1x1x1 (multiReduction .add [1, 2] S1
    (shapeCast S1x8192x128 src shapeCasts_S8192x128_S1x8192x128) 0x00000000#32 reduces_S1x8192x128_S1 (.inl rfl) rfl)
    shapeCasts_S1_S1x1x1) inpos_S1x1x1_p0_0_0)

/-- The cell holds the sum of the block's entries. -/
theorem cell_apply (src : FVec Ideal S8192x128 .f32) (j : S1x1.Idx) : cell src j = ∑ y : S8192x128.Idx, src y := by
  unfold cell
  rw [broadcast_apply]
  unfold extractAt
  rw [shapeCast_apply _ shapeCasts_S1_S1x1x1 _ (ix1 (0 : Fin 1)) (by
    rw [Shape.rowMajor_val_one, Shape.rowMajor_val_three]; rfl)]
  refine (Ideal.multiReduction_add_total _ _ reduces_S1x8192x128_S1 (fun b => by match b with | ⟨0, _⟩ => rfl) _ _ _).trans ?_
  rw [sum_idx3, sum_idx2, Fin.sum_univ_one]
  refine Finset.sum_congr rfl fun a _ => Finset.sum_congr rfl fun b _ => ?_
  refine (shapeCast_addUnit_apply ![8192, 128] src shapeCasts_S8192x128_S1x8192x128 (ix3 (0 : Fin 1) a b)).trans ?_
  exact congrArg src (funext fun d => by match d with | ⟨0, _⟩ => rfl | ⟨1, _⟩ => rfl)

/-- The float mask of the pairs whose bin word is `k`. -/
def maskv (v21 : IVec S8192x128 32) (k : BitVec 32) : FVec Ideal S8192x128 .f32 :=
  sitofp .f32 (extui 32 (cmpi .eq v21 (broadcast S8192x128 k)) natLt_1_32)

/-- The mask at a pair is the indicator of the pair's word. -/
theorem maskv_apply (v21 : IVec S8192x128 32) (k : BitVec 32) (y : S8192x128.Idx) : maskv v21 k y = ind (v21 y) k := rfl

/-- The body's bin words: at each pair of the two blocks, the pair's bin. -/
theorem pay5_apply (x0 x1 : Vec Ideal S8192x128 .f32) (y : S8192x128.Idx) : k0_pay5 x0 x1 y = bin (x0 y) (x1 y) := by
  unfold k0_pay5 k0_pay3 k0_pay4
  simp only [shapeCast_self]
  rfl

/-- The body's losses: at each pair of the two blocks, the pair's smooth-L1 loss. -/
theorem pay6_apply (x0 x1 : Vec Ideal S8192x128 .f32) (y : S8192x128.Idx) : k0_pay6 x0 x1 y = loss (x0 y) (x1 y) := by
  unfold k0_pay6 k0_pay3 k0_pay4
  simp only [shapeCast_self]
  rfl

/-- The pieces of one row of the tile: ten cells, one per bin word 0 … 9, then 118 zero lanes. -/
def pieces (f : BitVec 32 → FVec Ideal S1x1 .f32) : List ((s : Shape) × (s.Idx → Ideal .f32)) :=
  [⟨S1x1, f 0#32⟩, ⟨S1x1, f 1#32⟩, ⟨S1x1, f 2#32⟩, ⟨S1x1, f 3#32⟩, ⟨S1x1, f 4#32⟩, ⟨S1x1, f 5#32⟩, ⟨S1x1, f 6#32⟩, ⟨S1x1, f 7#32⟩, ⟨S1x1, f 8#32⟩, ⟨S1x1, f 9#32⟩, ⟨S1x118, broadcast S1x118 (Scalar.ofBits .f32 0x00000000#32)⟩]

/-- One row of the tile. -/
def row (f : BitVec 32 → FVec Ideal S1x1 .f32) : FVec Ideal S1x128 .f32 :=
  concatenate S1x128 1 (pieces f) concatenates_S1x1_S1x1_S1x1_S1x1_S1x1_S1x1_S1x1_S1x1_S1x1_S1x1_S1x118_S1x128_d1

/-- The tile is the row of the bins' counts over the row of the bins' summed losses. -/
theorem tile_eq (x0 x1 : Vec Ideal S8192x128 .f32) : tile x0 x1
    = concatenate S2x128 0 [⟨S1x128, row fun k => cell (maskv (k0_pay5 x0 x1) k)⟩,
        ⟨S1x128, row fun k => cell (mulf (maskv (k0_pay5 x0 x1) k) (k0_pay6 x0 x1))⟩] concatenates_S1x128_S1x128_S2x128_d0 := rfl

/-- A row at lane `l`: the cell of bin `l` for the first ten lanes, zero beyond. -/
theorem row_apply (f : BitVec 32 → FVec Ideal S1x1 .f32) (l : Fin 128) :
    row f (ix2 (0 : Fin 1) l)
      = if l.val < 10 then f (BitVec.ofNat 32 l.val) (ix2 (0 : Fin 1) (0 : Fin 1)) else Ideal.ofBits .f32 0x00000000#32 := by
  obtain ⟨l, hl⟩ := l
  unfold row
  match l, hl with
  | 0, hl => exact (concatenate_apply_piece (t := S1x128) (1 : Fin 2) (pieces f) concatenates_S1x1_S1x1_S1x1_S1x1_S1x1_S1x1_S1x1_S1x1_S1x1_S1x1_S1x118_S1x128_d1 (ix2 (0 : Fin 1) (⟨0, hl⟩ : Fin 128)) 0 (by show (0 : Nat) < 11; decide) S1x1 (f 0#32) rfl rfl 0 rfl (ix2 (0 : Fin 1) (0 : Fin 1)) (fun b hb => by match b with | ⟨0, _⟩ => rfl | ⟨1, _⟩ => exact absurd rfl hb) rfl).trans (if_pos (by show (0 : Nat) < 10; decide)).symm
  | 1, hl => exact (concatenate_apply_piece (t := S1x128) (1 : Fin 2) (pieces f) concatenates_S1x1_S1x1_S1x1_S1x1_S1x1_S1x1_S1x1_S1x1_S1x1_S1x1_S1x118_S1x128_d1 (ix2 (0 : Fin 1) (⟨1, hl⟩ : Fin 128)) 1 (by show (1 : Nat) < 11; decide) S1x1 (f 1#32) rfl rfl 1 rfl (ix2 (0 : Fin 1) (0 : Fin 1)) (fun b hb => by match b with | ⟨0, _⟩ => rfl | ⟨1, _⟩ => exact absurd rfl hb) rfl).trans (if_pos (by show (1 : Nat) < 10; decide)).symm
  | 2, hl => exact (concatenate_apply_piece (t := S1x128) (1 : Fin 2) (pieces f) concatenates_S1x1_S1x1_S1x1_S1x1_S1x1_S1x1_S1x1_S1x1_S1x1_S1x1_S1x118_S1x128_d1 (ix2 (0 : Fin 1) (⟨2, hl⟩ : Fin 128)) 2 (by show (2 : Nat) < 11; decide) S1x1 (f 2#32) rfl rfl 2 rfl (ix2 (0 : Fin 1) (0 : Fin 1)) (fun b hb => by match b with | ⟨0, _⟩ => rfl | ⟨1, _⟩ => exact absurd rfl hb) rfl).trans (if_pos (by show (2 : Nat) < 10; decide)).symm
  | 3, hl => exact (concatenate_apply_piece (t := S1x128) (1 : Fin 2) (pieces f) concatenates_S1x1_S1x1_S1x1_S1x1_S1x1_S1x1_S1x1_S1x1_S1x1_S1x1_S1x118_S1x128_d1 (ix2 (0 : Fin 1) (⟨3, hl⟩ : Fin 128)) 3 (by show (3 : Nat) < 11; decide) S1x1 (f 3#32) rfl rfl 3 rfl (ix2 (0 : Fin 1) (0 : Fin 1)) (fun b hb => by match b with | ⟨0, _⟩ => rfl | ⟨1, _⟩ => exact absurd rfl hb) rfl).trans (if_pos (by show (3 : Nat) < 10; decide)).symm
  | 4, hl => exact (concatenate_apply_piece (t := S1x128) (1 : Fin 2) (pieces f) concatenates_S1x1_S1x1_S1x1_S1x1_S1x1_S1x1_S1x1_S1x1_S1x1_S1x1_S1x118_S1x128_d1 (ix2 (0 : Fin 1) (⟨4, hl⟩ : Fin 128)) 4 (by show (4 : Nat) < 11; decide) S1x1 (f 4#32) rfl rfl 4 rfl (ix2 (0 : Fin 1) (0 : Fin 1)) (fun b hb => by match b with | ⟨0, _⟩ => rfl | ⟨1, _⟩ => exact absurd rfl hb) rfl).trans (if_pos (by show (4 : Nat) < 10; decide)).symm
  | 5, hl => exact (concatenate_apply_piece (t := S1x128) (1 : Fin 2) (pieces f) concatenates_S1x1_S1x1_S1x1_S1x1_S1x1_S1x1_S1x1_S1x1_S1x1_S1x1_S1x118_S1x128_d1 (ix2 (0 : Fin 1) (⟨5, hl⟩ : Fin 128)) 5 (by show (5 : Nat) < 11; decide) S1x1 (f 5#32) rfl rfl 5 rfl (ix2 (0 : Fin 1) (0 : Fin 1)) (fun b hb => by match b with | ⟨0, _⟩ => rfl | ⟨1, _⟩ => exact absurd rfl hb) rfl).trans (if_pos (by show (5 : Nat) < 10; decide)).symm
  | 6, hl => exact (concatenate_apply_piece (t := S1x128) (1 : Fin 2) (pieces f) concatenates_S1x1_S1x1_S1x1_S1x1_S1x1_S1x1_S1x1_S1x1_S1x1_S1x1_S1x118_S1x128_d1 (ix2 (0 : Fin 1) (⟨6, hl⟩ : Fin 128)) 6 (by show (6 : Nat) < 11; decide) S1x1 (f 6#32) rfl rfl 6 rfl (ix2 (0 : Fin 1) (0 : Fin 1)) (fun b hb => by match b with | ⟨0, _⟩ => rfl | ⟨1, _⟩ => exact absurd rfl hb) rfl).trans (if_pos (by show (6 : Nat) < 10; decide)).symm
  | 7, hl => exact (concatenate_apply_piece (t := S1x128) (1 : Fin 2) (pieces f) concatenates_S1x1_S1x1_S1x1_S1x1_S1x1_S1x1_S1x1_S1x1_S1x1_S1x1_S1x118_S1x128_d1 (ix2 (0 : Fin 1) (⟨7, hl⟩ : Fin 128)) 7 (by show (7 : Nat) < 11; decide) S1x1 (f 7#32) rfl rfl 7 rfl (ix2 (0 : Fin 1) (0 : Fin 1)) (fun b hb => by match b with | ⟨0, _⟩ => rfl | ⟨1, _⟩ => exact absurd rfl hb) rfl).trans (if_pos (by show (7 : Nat) < 10; decide)).symm
  | 8, hl => exact (concatenate_apply_piece (t := S1x128) (1 : Fin 2) (pieces f) concatenates_S1x1_S1x1_S1x1_S1x1_S1x1_S1x1_S1x1_S1x1_S1x1_S1x1_S1x118_S1x128_d1 (ix2 (0 : Fin 1) (⟨8, hl⟩ : Fin 128)) 8 (by show (8 : Nat) < 11; decide) S1x1 (f 8#32) rfl rfl 8 rfl (ix2 (0 : Fin 1) (0 : Fin 1)) (fun b hb => by match b with | ⟨0, _⟩ => rfl | ⟨1, _⟩ => exact absurd rfl hb) rfl).trans (if_pos (by show (8 : Nat) < 10; decide)).symm
  | 9, hl => exact (concatenate_apply_piece (t := S1x128) (1 : Fin 2) (pieces f) concatenates_S1x1_S1x1_S1x1_S1x1_S1x1_S1x1_S1x1_S1x1_S1x1_S1x1_S1x118_S1x128_d1 (ix2 (0 : Fin 1) (⟨9, hl⟩ : Fin 128)) 9 (by show (9 : Nat) < 11; decide) S1x1 (f 9#32) rfl rfl 9 rfl (ix2 (0 : Fin 1) (0 : Fin 1)) (fun b hb => by match b with | ⟨0, _⟩ => rfl | ⟨1, _⟩ => exact absurd rfl hb) rfl).trans (if_pos (by show (9 : Nat) < 10; decide)).symm
  | n + 10, hn =>
    exact (concatenate_apply_piece (t := S1x128) (1 : Fin 2) (pieces f) concatenates_S1x1_S1x1_S1x1_S1x1_S1x1_S1x1_S1x1_S1x1_S1x1_S1x1_S1x118_S1x128_d1 (ix2 (0 : Fin 1) (⟨n + 10, hn⟩ : Fin 128)) 10 (by show (10 : Nat) < 11; decide) S1x118 (broadcast S1x118 (Scalar.ofBits .f32 0x00000000#32)) rfl rfl 10 rfl
      (ix2 (0 : Fin 1) (⟨n, by omega⟩ : Fin 118)) (fun b hb => by match b with | ⟨0, _⟩ => rfl | ⟨1, _⟩ => exact absurd rfl hb) (by show 10 + n = n + 10; omega)).trans (if_neg (by show ¬(n + 10 < 10); omega)).symm
/-- Row 0 of the tile at lane `l`: how many pairs of the two blocks fall in bin `l` (zero beyond the ten bins). -/
theorem tile_count (x0 x1 : Vec Ideal S8192x128 .f32) (l : Fin 128) :
    tile x0 x1 (ix2 (0 : Fin 2) l)
      = if l.val < 10 then ∑ y : S8192x128.Idx, ind (bin (x0 y) (x1 y)) (BitVec.ofNat 32 l.val)
        else Ideal.ofBits .f32 0x00000000#32 := by
  rw [tile_eq]
  refine (concatenate_pair_apply_left (t := S2x128) (s₁ := S1x128) (s₂ := S1x128) (0 : Fin 2) _ _ concatenates_S1x128_S1x128_S2x128_d0 (ix2 (0 : Fin 2) l) rfl
    (ix2 (0 : Fin 1) l) (fun b => by match b with | ⟨0, _⟩ => rfl | ⟨1, _⟩ => rfl)).trans ?_
  rw [row_apply]
  refine if_congr Iff.rfl ?_ rfl
  rw [cell_apply]
  exact Finset.sum_congr rfl fun y _ => by rw [maskv_apply, pay5_apply]

/-- Row 1 of the tile at lane `l`: the summed loss of the pairs of the two blocks that fall in bin `l`. -/
theorem tile_loss (x0 x1 : Vec Ideal S8192x128 .f32) (l : Fin 128) :
    tile x0 x1 (ix2 (1 : Fin 2) l)
      = if l.val < 10 then ∑ y : S8192x128.Idx, ind (bin (x0 y) (x1 y)) (BitVec.ofNat 32 l.val) * loss (x0 y) (x1 y)
        else Ideal.ofBits .f32 0x00000000#32 := by
  rw [tile_eq]
  refine (concatenate_pair_apply_right (t := S2x128) (s₁ := S1x128) (s₂ := S1x128) (0 : Fin 2) _ _ concatenates_S1x128_S1x128_S2x128_d0 (ix2 (1 : Fin 2) l) rfl rfl
    (ix2 (0 : Fin 1) l) (fun b hb => by match b with | ⟨0, _⟩ => exact absurd rfl hb | ⟨1, _⟩ => rfl) rfl).trans ?_
  rw [row_apply]
  refine if_congr Iff.rfl ?_ rfl
  rw [cell_apply]
  exact Finset.sum_congr rfl fun y _ => by rw [mulf_apply, maskv_apply, pay5_apply, pay6_apply]

end Cert.KernelIdeal.Tile

end
-- ==== Proof.KernelArray.lean ====
/-
  The kernel's result array, read off the frame: at (core k, row r, lane l) it holds the zero word plus the four
  tiles of core k's four grid points, added in point order.

  The output block of core k is carried in one staging buffer over the core's four points 4k, 4k+1, 4k+2, 4k+3: the
  first point sets it to zero and adds its tile, each later point adds its tile to what the point before left, and the
  block is written back after the fourth. So what the buffer holds after a point is a running sum that restarts at
  every multiple of four, and what is written back after point 4k+3 is the sum of the four tiles over zero. The block
  of point t sits at row-block t / 4 of the 2×2×128 array, so the two write-backs (after points 3 and 7) fill the two
  halves of the array and together cover it.
-/
import proofs.«116623_j7164005449995_2_alg».proof.Proof.KernelCases
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Tile

open Cert.KernelIdeal Cert.KernelIdeal.Gen Idealize.ShloMosaic Idealize.ShloMosaic.ValueIdx

/-- The body's last store adds the tile to what the block held: at (0, r, l) the block's entry plus the tile's. -/
theorem pay1_apply (T : FVec Ideal S2x128 .f32) (xo : Vec Ideal S1x2x128 .f32) (r : Fin 2) (l : Fin 128) :
    k0_pay1 (F := Ideal) T xo (ix3 (0 : Fin 1) r l) = xo (ix3 (0 : Fin 1) r l) + T (ix2 r l) := by
  unfold k0_pay1
  refine (shapeCast_ab_1ab_apply _ _ (0 : Fin 1) r l).trans ?_
  show shapeCast S2x128 xo _ (ix2 r l) + T (ix2 r l) = _
  exact congrArg (· + T (ix2 r l)) (shapeCast_1ab_ab_apply xo _ r l)

/-- The block a core's first point starts from is zero everywhere. -/
theorem pay2_apply (r : Fin 2) (l : Fin 128) :
    k0_pay2 (F := Ideal) (ix3 (0 : Fin 1) r l) = Ideal.ofBits .f32 0x00000000#32 := by
  unfold k0_pay2
  exact shapeCast_ab_1ab_apply _ _ (0 : Fin 1) r l

variable (m : (ℓ : Loc nD τ sig) → Buf (Elt Ideal) ℓ)

/-- the tile of grid point t -/
def tileAt (c : Dev nD) (t : Fin cfg0.N) : FVec Ideal S2x128 .f32 := tile (iblk m c 0 t) (iblk m c 1 t)

/-- point 4·k + n of the grid -/
def pt (k : Fin 2) (n : Fin 4) : Fin cfg0.N := ⟨4 * k.val + n.val, by rw [show cfg0.N = 8 from N_0]; omega⟩

/-- the 2×2×128 result array: at (core k, row r, lane l) the zero word plus the four tiles of core k, added in point order -/
def finalArr (c : Dev nD) : Buf (Elt Ideal) ((c : Thread nD τ).loc main_v2) := fun i =>
  Ideal.ofBits .f32 0x00000000#32 + tileAt m c (pt (i 0) 0) (ix2 (i 1) (i 2)) + tileAt m c (pt (i 0) 1) (ix2 (i 1) (i 2))
    + tileAt m c (pt (i 0) 2) (ix2 (i 1) (i 2)) + tileAt m c (pt (i 0) 3) (ix2 (i 1) (i 2))

/-- The running block after point n: the point's tile added to the zero block at a multiple of four, and to what the
    point before left otherwise. -/
def chain (c : Dev nD) : (n : ℕ) → n < cfg0.N → Vec Ideal S1x2x128 .f32
  | 0, h => k0_pay1 (tileAt m c ⟨0, h⟩) (k0_pay2 (F := Ideal))
  | n + 1, h => k0_pay1 (tileAt m c ⟨n + 1, h⟩) (if (n + 1) % 4 = 0 then (k0_pay2 (F := Ideal)) else chain c n (Nat.lt_of_succ_lt h))

theorem chain_zero (c : Dev nD) (h : 0 < cfg0.N) : chain m c 0 h = k0_pay1 (tileAt m c ⟨0, h⟩) (k0_pay2 (F := Ideal)) := rfl

theorem chain_succ (c : Dev nD) (n : ℕ) (h : n + 1 < cfg0.N) :
    chain m c (n + 1) h
      = k0_pay1 (tileAt m c ⟨n + 1, h⟩) (if (n + 1) % 4 = 0 then (k0_pay2 (F := Ideal)) else chain m c n (Nat.lt_of_succ_lt h)) := rfl

/-- What the output's staging buffer holds after point n is the running block — by induction on the point. -/
theorem outsAt_eq (c : Dev nD) : ∀ (n : ℕ) (h : n < cfg0.N), outsAt0 m c n h = chain m c n h
  | 0, h => (outsAt0_A m c ⟨0, h⟩ rfl).trans
      (out_A (F := Ideal) c (grid0.coords ⟨0, h⟩) (ms0_0 ⟨0, h⟩) (hs0_0 ⟨0, h⟩) (ms0_1 ⟨0, h⟩) (hs0_1 ⟨0, h⟩) (ms0_2 ⟨0, h⟩)
        (hs0_2 ⟨0, h⟩) ((hcond0_0 ⟨0, h⟩).mpr rfl) (iblk m c 0 ⟨0, h⟩) (iblk m c 1 ⟨0, h⟩))
  | n + 1, h => by
    rw [chain_succ]
    by_cases h0 : (n + 1) % 4 = 0
    · rw [if_pos h0]
      exact (outsAt0_A m c ⟨n + 1, h⟩ h0).trans
        (out_A (F := Ideal) c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) ((hcond0_0 ⟨n + 1, h⟩).mpr h0)
          (iblk m c 0 ⟨n + 1, h⟩) (iblk m c 1 ⟨n + 1, h⟩))
    · rw [if_neg h0, ← outsAt_eq c n (Nat.lt_of_succ_lt h)]
      exact (outsAt0_B m c ⟨n + 1, h⟩ h0).trans
        (out_B (F := Ideal) c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) (fun hc => h0 ((hcond0_0 ⟨n + 1, h⟩).mp hc))
          (iblk m c 0 ⟨n + 1, h⟩) (iblk m c 1 ⟨n + 1, h⟩) (outsAt0 m c n (Nat.lt_of_succ_lt h)))

/-- At a point that is not a multiple of four the running block is the point before's plus the point's tile. -/
theorem chain_apply_step (c : Dev nD) (n : ℕ) (h : n + 1 < cfg0.N) (hne : ¬(n + 1) % 4 = 0) (r : Fin 2) (l : Fin 128) :
    chain m c (n + 1) h (ix3 (0 : Fin 1) r l)
      = chain m c n (Nat.lt_of_succ_lt h) (ix3 (0 : Fin 1) r l) + tileAt m c ⟨n + 1, h⟩ (ix2 r l) := by
  rw [chain_succ, if_neg hne]
  exact pay1_apply (tileAt m c ⟨n + 1, h⟩) (chain m c n (Nat.lt_of_succ_lt h)) r l

/-- At a multiple of four it is zero plus the point's tile. -/
theorem chain_apply_reset (c : Dev nD) : ∀ (n : ℕ) (h : n < cfg0.N), n % 4 = 0 → ∀ (r : Fin 2) (l : Fin 128),
    chain m c n h (ix3 (0 : Fin 1) r l) = Ideal.ofBits .f32 0x00000000#32 + tileAt m c ⟨n, h⟩ (ix2 r l)
  | 0, h, _, r, l =>
    (pay1_apply (tileAt m c ⟨0, h⟩) (k0_pay2 (F := Ideal)) r l).trans
      (congrArg (· + tileAt m c ⟨0, h⟩ (ix2 r l)) (pay2_apply r l))
  | n + 1, h, h0, r, l => by
    rw [chain_succ, if_pos h0]
    exact (pay1_apply (tileAt m c ⟨n + 1, h⟩) (k0_pay2 (F := Ideal)) r l).trans
      (congrArg (· + tileAt m c ⟨n + 1, h⟩ (ix2 r l)) (pay2_apply r l))

/-- So after the fourth point of a run that starts at a multiple of four the block holds zero plus the run's four
    tiles, added in point order. -/
theorem chain_run (c : Dev nD) (b : ℕ) (hb : b % 4 = 0) (h3 : b + 3 < cfg0.N) (r : Fin 2) (l : Fin 128) :
    chain m c (b + 3) h3 (ix3 (0 : Fin 1) r l)
      = Ideal.ofBits .f32 0x00000000#32 + tileAt m c ⟨b, by omega⟩ (ix2 r l) + tileAt m c ⟨b + 1, by omega⟩ (ix2 r l)
        + tileAt m c ⟨b + 2, by omega⟩ (ix2 r l) + tileAt m c ⟨b + 3, h3⟩ (ix2 r l) := by
  refine (chain_apply_step m c (b + 2) h3 (by omega) r l).trans ?_
  refine congrArg (· + tileAt m c ⟨b + 3, h3⟩ (ix2 r l)) ?_
  refine (chain_apply_step m c (b + 1) (by omega) (by omega) r l).trans ?_
  refine congrArg (· + tileAt m c ⟨b + 2, by omega⟩ (ix2 r l)) ?_
  refine (chain_apply_step m c b (by omega) (by omega) r l).trans ?_
  refine congrArg (· + tileAt m c ⟨b + 1, by omega⟩ (ix2 r l)) ?_
  exact chain_apply_reset m c b (by omega) hb r l

/-- After the fourth point of core k the block holds, at (0, r, l), the result array's entry (k, r, l). -/
theorem chain_last (c : Dev nD) (k : Fin 2) (r : Fin 2) (l : Fin 128) :
    chain m c (pt k 3).val (pt k 3).isLt (ix3 (0 : Fin 1) r l) = finalArr m c (ix3 k r l) :=
  chain_run m c (4 * k.val) (by omega) (pt k 3).isLt r l

/-- Where the output window's block sits: point t writes row-block t / 4, at offset zero on the two other axes. -/
theorem idx_facts : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- What a write-back writes is its block of the result array: the write-backs are after the fourth point of each
    core, where the carried block holds zero plus the core's four tiles. -/
theorem flushed_eq (c : Dev nD) (t : Fin cfg0.N) (hf : (cfg0.win 2).flush t = true) :
    (dats m 0 c).flushed 2 t = ((cfg0.win 2).blk t).view.read (Elt Ideal) (finalArr m c) := by
  have hN : cfg0.N = 8 := N_0
  have h3 : t.val % 4 = 3 := (flush0_2 t).mp hf
  have htl : t.val < 8 := lt_of_lt_of_eq t.isLt hN
  obtain ⟨k, rfl⟩ : ∃ k : Fin 2, t = pt k 3 :=
    ⟨⟨t.val / 4, by omega⟩, Fin.ext (by show t.val = 4 * (t.val / 4) + 3; omega)⟩
  have hv : (pt k 3).val = 4 * k.val + 3 := rfl
  have hk : k.val < 2 := k.isLt
  obtain ⟨e0, e1, e2⟩ := idx_facts (pt k 3)
  show (cfg0.win 2).cut (grid0.coords (pt k 3)) ((dats m 0 c).after 2 (pt k 3)) = _
  rw [after0_2, outsAt_eq]
  funext j
  have hj0 : (j 0).val < 1 := (j 0).isLt
  have hj1 : (j 1).val < 2 := (j 1).isLt
  have hj2 : (j 2).val < 128 := (j 2).isLt
  have hx : (cfg0.win 2).xinj (grid0.coords (pt k 3)) j = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  have hemb : ((cfg0.win 2).blk (pt k 3)).view.emb j = ix3 k ⟨(j 1).val, hj1⟩ ⟨(j 2).val, hj2⟩ := by
    funext a; apply Fin.ext
    match a with
    | ⟨0, _⟩ => show win0_2.index (pt k 3) (0 : Fin 3) * 1 + 1 * (j 0).val = k.val; rw [e0, hv]; omega
    | ⟨1, _⟩ => show win0_2.index (pt k 3) (1 : Fin 3) * 2 + 1 * (j 1).val = (j 1).val; rw [e1]; omega
    | ⟨2, _⟩ => show win0_2.index (pt k 3) (2 : Fin 3) * 128 + 1 * (j 2).val = (j 2).val; rw [e2]; omega
  show chain m c (pt k 3).val (pt k 3).isLt ((cfg0.win 2).xinj (grid0.coords (pt k 3)) j)
    = finalArr m c (((cfg0.win 2).blk (pt k 3)).view.emb j)
  rw [hx, hemb]
  exact chain_last m c k ⟨(j 1).val, hj1⟩ ⟨(j 2).val, hj2⟩

/-- Every entry of the result array is written back: entry (k, r, l) by the write-back after the fourth point of core k. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 2 := (i 1).isLt
  have h2 : (i 2 : Nat) < 128 := (i 2).isLt
  have hv : (pt ⟨(i 0 : Nat), h0⟩ 3).val = 4 * (i 0 : Nat) + 3 := rfl
  obtain ⟨e0, e1, e2⟩ := idx_facts (pt ⟨(i 0 : Nat), h0⟩ 3)
  refine ⟨pt ⟨(i 0 : Nat), h0⟩ 3, (flush0_2 _).mpr (by rw [hv]; omega), ?_⟩
  show i ∈ ((View.whole main_v2).slice (win0_2.rect (pt ⟨(i 0 : Nat), h0⟩ 3))).set
  rw [View.set_slice_whole, Rect.mem_set_unit]
  intro a
  match a with
  | ⟨0, _⟩ =>
    show win0_2.index (pt ⟨(i 0 : Nat), h0⟩ 3) (0 : Fin 3) * 1 ≤ (i 0 : Nat)
      ∧ (i 0 : Nat) < win0_2.index (pt ⟨(i 0 : Nat), h0⟩ 3) (0 : Fin 3) * 1 + 1
    rw [e0, hv]; omega
  | ⟨1, _⟩ =>
    show win0_2.index (pt ⟨(i 0 : Nat), h0⟩ 3) (1 : Fin 3) * 2 ≤ (i 1 : Nat)
      ∧ (i 1 : Nat) < win0_2.index (pt ⟨(i 0 : Nat), h0⟩ 3) (1 : Fin 3) * 2 + 2
    rw [e1]; omega
  | ⟨2, _⟩ =>
    show win0_2.index (pt ⟨(i 0 : Nat), h0⟩ 3) (2 : Fin 3) * 128 ≤ (i 2 : Nat)
      ∧ (i 2 : Nat) < win0_2.index (pt ⟨(i 0 : Nat), h0⟩ 3) (2 : Fin 3) * 128 + 128
    rw [e2]; omega

/-- So the result array ends holding, at (core k, row r, lane l), zero plus the four tiles of core k in point order. -/
theorem final2 (c : Dev nD) : (dats m 0 c).arrAt 2 cfg0.N = finalArr m c :=
  (dats m 0 c).arrAt_eq_of_cover 2 (finalArr m c) (fun t hf => flushed_eq m c t hf) (cover c)

end Cert.KernelIdeal.Tile

end
-- ==== Proof.BinnedFacts.lean ====
/-
  Elementary facts about the bin, the indicator and the loss of a pair of angles.

  The bin is a word clamped between 0 and 9, so read as a number it is below ten and it is its own signed reading;
  the indicator of a bin is 1 on that bin's word and 0 on every other word; the smooth-L1 loss is never negative
  (below the knee it is half a square, above it |d| - 1/2 with |d| at least 1); the words of the ten bins and the
  ten bins correspond one to one. The three float literals that the statements meet are evaluated once.
-/
import proofs.«116623_j7164005449995_2_alg».proof.Proof.BinnedTotals

noncomputable section

open scoped BigOperators

namespace Cert.BinnedLoss

open Idealize.ShloMosaic Idealize.ShloMosaic.ValueIdx

/-- The word of +0.0 is the real 0. -/
theorem zero_f32 : Ideal.ofBits .f32 0x00000000#32 = 0 := by
  simp [Ideal.ofBits, Ideal.ieee]

/-- The word of 1.0 is the real 1. -/
theorem one_f32 : Ideal.ofBits .f32 0x3F800000#32 = ((1 : ℝ) : EReal) := by
  simp [Ideal.ofBits, Ideal.ieee, -EReal.coe_mul]; norm_num

/-- The word of 0.5 is the real 1/2. -/
theorem half_f32 : Ideal.ofBits .f32 0x3F000000#32 = ((1 / 2 : ℝ) : EReal) := by
  simp [Ideal.ofBits, Ideal.ieee, -EReal.coe_mul]; norm_num

/-- The indicator is 1 on the bin's own word and 0 elsewhere. -/
theorem ind_eq (w b : BitVec 32) : ind w b = if w = b then 1 else 0 := by
  unfold ind IntOp.cmpi
  by_cases h : w = b
  · subst h; simp
  · have hf : (w == b) = false := by simpa using h
    simp [hf, h]

/-- A word clamped below by 0 and above by 9 (signed) is one of 0 … 9, and its signed reading is that number. -/
theorem clamp_facts (x : BitVec 32) :
    (IntOp.minsi 9#32 (IntOp.maxsi 0#32 x)).toNat < 10 ∧
      (IntOp.minsi 9#32 (IntOp.maxsi 0#32 x)).toInt = ((IntOp.minsi 9#32 (IntOp.maxsi 0#32 x)).toNat : Int) := by
  unfold IntOp.minsi IntOp.maxsi
  have hx := BitVec.toInt_eq_toNat_cond x
  have hlt : x.toNat < 2 ^ 32 := x.isLt
  have h9 : (9#32 : BitVec 32).toInt = 9 := by decide
  have h0 : (0#32 : BitVec 32).toInt = 0 := by decide
  by_cases h1 : x.slt 0#32 = true
  · rw [if_pos h1]
    have h2 : ¬ ((9#32 : BitVec 32).slt 0#32 = true) := by decide
    rw [if_neg h2]
    exact ⟨by decide, by decide⟩
  · rw [if_neg h1]
    rw [BitVec.slt_iff_toInt_lt, h0] at h1
    by_cases h2 : (9#32 : BitVec 32).slt x = true
    · rw [if_pos h2]
      exact ⟨by decide, by decide⟩
    · rw [if_neg h2]
      rw [BitVec.slt_iff_toInt_lt, h9] at h2
      split_ifs at hx with hc
      · constructor <;> omega
      · exfalso; omega

/-- A bin is one of 0 … 9. -/
theorem bin_lt (p t : EReal) : (bin p t).toNat < 10 := by
  exact (clamp_facts _).1

/-- Read signed, a bin is the same number: it is not negative. -/
theorem bin_toInt (p t : EReal) : (bin p t).toInt = ((bin p t).toNat : Int) := by
  exact (clamp_facts _).2

/-- A word below ten is the word of its own bin. -/
theorem word_binIdx (w : BitVec 32) (h : w.toNat < 10) : word (binIdx w) = w := by
  show BitVec.ofNat 32 (w.toNat % 10) = w
  rw [Nat.mod_eq_of_lt h]
  simp

/-- A bin is the bin of its own word. -/
theorem binIdx_word (b : V10.Idx) : binIdx (word b) = b := by
  have hb : (b 0).val < 10 := (b 0).isLt
  funext d
  match d with
  | ⟨0, _⟩ =>
    apply Fin.ext
    show (BitVec.ofNat 32 (b 0).val).toNat % 10 = (b 0).val
    rw [BitVec.toNat_ofNat]
    omega

/-- The words of two different bins differ. -/
theorem word_injective : Function.Injective word := by
  exact Function.LeftInverse.injective binIdx_word

/-- Division by the real 1 changes nothing. -/
theorem div_one_real (x : EReal) : Ideal.div x ((1 : ℝ) : EReal) = x := by
  rw [Ideal.div_coe one_ne_zero]; simp

/-- The loss with its comparison read on the order: half a square below the knee, the gap less a half from it on. -/
theorem loss_eq (p t : EReal) :
    loss p t = if gap p t < ((1 : ℝ) : EReal) then ((1 / 2 : ℝ) : EReal) * (p - t) * (p - t)
      else gap p t - ((1 / 2 : ℝ) : EReal) := by
  unfold loss Scalar.select Ideal.cmp
  rw [one_f32, half_f32, div_one_real]
  by_cases h : gap p t < (1 : EReal)
  · simp [h]
  · simp [h]

/-- On a real the gap is the absolute value. -/
theorem gap_coe (r : ℝ) : max (r : EReal) (-(r : EReal)) = ((|r| : ℝ) : EReal) := by
  rw [← EReal.coe_neg, abs_eq_max_neg, EReal.coe_strictMono.monotone.map_max]

/-- The smooth-L1 loss is never negative, whatever the two extended reals. -/
theorem loss_nonneg (p t : EReal) : 0 ≤ loss p t := by
  rw [loss_eq]
  unfold gap
  generalize p - t = d
  induction d using EReal.rec with
  | bot =>
    have hm : max (⊥ : EReal) (-⊥) = ⊤ := by simp
    rw [hm, if_neg (not_lt.mpr le_top), EReal.top_sub_coe]
    exact le_top
  | coe r =>
    rw [gap_coe]
    split_ifs with h
    · rw [← EReal.coe_mul, ← EReal.coe_mul]
      exact EReal.coe_nonneg.mpr (by nlinarith [mul_self_nonneg r])
    · rw [not_lt, EReal.coe_le_coe_iff] at h
      rw [← EReal.coe_sub]
      exact EReal.coe_nonneg.mpr (by linarith)
  | top =>
    have hm : max (⊤ : EReal) (-⊤) = ⊤ := by simp
    rw [hm, if_neg (not_lt.mpr le_top), EReal.top_sub_coe]
    exact le_top

end Cert.BinnedLoss

end
-- ==== Proof.BinnedMeans.lean ====
/-
  The two shapes of the weighted mean are one number, and the mean does not depend on how the family is indexed.

  The law: for words w_j that are each one of the ten bins, values x_j that are never negative and any per-bin
  weights W,
      Σ_b W_b · (Σ_j [w_j = b] · x_j)  =  Σ_j x_j · W(w_j).
  On the extended reals a product does not distribute over a sum in general (an infinity of each sign may meet), but it
  does when every summand is at least 0, and the summands [w_j = b] · x_j are: that carries the factor W_b inside the
  inner sum. The two sums are then exchanged, and for each j the sum over b has one term that is not 0, the bin of w_j
  itself, where the indicator is 1. Commutativity, the exchange of two finite sums, 0 · x = 0 and 1 · x = x hold at every
  extended real, so nothing is assumed finite.

  A bijection between two index families carries the bin counts, hence the weights, and the sum of weighted losses over
  with it. The last part is the bijection between (tile of eight, row of 8192, lane of 128) and the flat column of
  8 · 8192 · 128 elements.
-/
import proofs.«116623_j7164005449995_2_alg».proof.Proof.BinnedFacts

noncomputable section

open scoped BigOperators

namespace Cert.BinnedLoss

open Idealize.ShloMosaic Idealize.ShloMosaic.ValueIdx

/-- A finite sum of extended reals that are at least 0, times c, is the sum of the products: right distributivity
    holds when the summands are not negative, and the partial sums stay not negative. -/
theorem sum_mul_of_nonneg {α : Type} (s : Finset α) (f : α → EReal) (c : EReal) (hf : ∀ a ∈ s, 0 ≤ f a) :
    (∑ a ∈ s, f a) * c = ∑ a ∈ s, f a * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun b hb => hf b (Finset.mem_insert_of_mem hb)),
      ih fun b hb => hf b (Finset.mem_insert_of_mem hb)]

/-- The indicator is never negative. -/
theorem ind_nonneg (w b : BitVec 32) : 0 ≤ ind w b := by
  rw [ind_eq]; split_ifs
  · exact zero_le_one
  · exact le_rfl

variable {ι κ : Type} [Fintype ι] [Fintype κ]

/-- For one element, the sum over the ten bins of [w = b] · x · W_b is x · W at the bin of w. -/
theorem sum_bins_single (w : BitVec 32) (hw : w.toNat < 10) (x : EReal) (W : V10.Idx → EReal) :
    ∑ b : V10.Idx, (ind w (word b) * x) * W b = x * W (binIdx w) := by
  rw [Finset.sum_eq_single (binIdx w)]
  · rw [word_binIdx w hw, ind_eq, if_pos rfl, one_mul]
  · intro b _ hb
    have hne : w ≠ word b := fun h => hb (by rw [h, binIdx_word])
    rw [ind_eq, if_neg hne, zero_mul, zero_mul]
  · intro h; exact absurd (Finset.mem_univ _) h

/-- The regrouping law: every bin's weight times the bin's summed values is every value times its own bin's weight. -/
theorem binned_sum (w : ι → BitVec 32) (hw : ∀ j, (w j).toNat < 10) (x : ι → EReal) (hx : ∀ j, 0 ≤ x j)
    (W : V10.Idx → EReal) :
    ∑ b : V10.Idx, W b * lossSums w x b = ∑ j, x j * W (binIdx (w j)) := by
  have h1 : ∀ b : V10.Idx, W b * lossSums w x b = ∑ j, (ind (w j) (word b) * x j) * W b := by
    intro b
    rw [mul_comm]
    exact sum_mul_of_nonneg Finset.univ (fun j => ind (w j) (word b) * x j) (W b)
      (fun j _ => mul_nonneg (ind_nonneg _ _) (hx j))
  rw [Finset.sum_congr rfl fun b _ => h1 b, Finset.sum_comm]
  exact Finset.sum_congr rfl fun j _ => sum_bins_single (w j) (hw j) (x j) W

section means

variable (hb : Sc.BroadcastsInDim V10 (![] : Fin 0 → Fin V10.rank)) (hr : V10.ReducesTo [0] Sc) (h0 : 0 < Sc.numel)
  (h132 : 1 < 32)

/-- The mean by bins is the mean by elements. -/
theorem mean_eq (p t : ι → EReal) (acc : FVec Ideal V10 .f32) :
    meanByBins hb hr h0 h132 p t acc = meanByElements hb hr h0 h132 p t acc := by
  unfold meanByBins meanByElements
  rw [binned_sum (fun j => bin (p j) (t j)) (fun j => bin_lt _ _) (fun j => loss (p j) (t j))
    (fun j => loss_nonneg _ _)]

/-- Counting the bins of a family does not depend on how the family is indexed. -/
theorem counts_equiv (e : ι ≃ κ) (w : κ → BitVec 32) : counts (fun i => w (e i)) = counts w := by
  funext b
  exact Equiv.sum_comp e fun k => ind (w k) (word b)

/-- Nor does the mean by elements. -/
theorem meanByElements_equiv (e : ι ≃ κ) (p t : κ → EReal) (acc : FVec Ideal V10 .f32) :
    meanByElements hb hr h0 h132 (fun i => p (e i)) (fun i => t (e i)) acc = meanByElements hb hr h0 h132 p t acc := by
  unfold meanByElements
  rw [counts_equiv e fun k => bin (p k) (t k)]
  rw [Equiv.sum_comp e fun k => loss (p k) (t k)
    * weight hb hr h0 h132 (counts fun j => bin (p j) (t j)) acc (binIdx (bin (p k) (t k)))]

end means

/-- tile n of the eight, row r of its 8192, lane l of 128  ↦  element (n·8192 + r)·128 + l of the flat column -/
def flatIdx (q : Fin 8 × (⟨2, ![8192, 128]⟩ : Shape).Idx) : (⟨2, ![8388608, 1]⟩ : Shape).Idx :=
  ix2 ⟨(q.1.val * 8192 + (q.2 0).val) * 128 + (q.2 1).val, by
    have h0 : (q.2 0).val < 8192 := idx2_lt0 q.2
    have h1 : (q.2 1).val < 128 := idx2_lt1 q.2
    have hn : q.1.val < 8 := q.1.isLt
    omega⟩ 0

/-- Every element of the flat column is one lane of one row of one tile: element n sits in tile n / (8192·128), row
    (n / 128) mod 8192, lane n mod 128. -/
def flatEquiv : Fin 8 × (⟨2, ![8192, 128]⟩ : Shape).Idx ≃ (⟨2, ![8388608, 1]⟩ : Shape).Idx where
  toFun := flatIdx
  invFun i := (⟨(i 0).val / 1048576, by have h0 : (i 0).val < 8388608 := idx2_lt0 i; omega⟩,
    ix2 ⟨((i 0).val / 128) % 8192, Nat.mod_lt _ (by decide)⟩ ⟨(i 0).val % 128, Nat.mod_lt _ (by decide)⟩)
  left_inv q := by
    obtain ⟨n, j⟩ := q
    have h0 : (j 0).val < 8192 := idx2_lt0 j
    have h1 : (j 1).val < 128 := idx2_lt1 j
    have hn : n.val < 8 := n.isLt
    refine Prod.ext (Fin.ext ?_) (funext fun a => ?_)
    · show ((n.val * 8192 + (j 0).val) * 128 + (j 1).val) / 1048576 = n.val
      omega
    · match a with
      | ⟨0, _⟩ =>
        refine Fin.ext ?_
        show (((n.val * 8192 + (j 0).val) * 128 + (j 1).val) / 128) % 8192 = (j 0).val
        omega
      | ⟨1, _⟩ =>
        refine Fin.ext ?_
        show ((n.val * 8192 + (j 0).val) * 128 + (j 1).val) % 128 = (j 1).val
        omega
  right_inv i := by
    have h0 : (i 0).val < 8388608 := idx2_lt0 i
    have h1 : (i 1).val < 1 := idx2_lt1 i
    funext a
    match a with
    | ⟨0, _⟩ =>
      refine Fin.ext ?_
      show ((i 0).val / 1048576 * 8192 + ((i 0).val / 128) % 8192) * 128 + (i 0).val % 128 = (i 0).val
      omega
    | ⟨1, _⟩ =>
      refine Fin.ext ?_
      show (0 : ℕ) = (i 1).val
      omega

/-- The bijection's forward map is the flat index. -/
theorem flatEquiv_apply (q : Fin 8 × (⟨2, ![8192, 128]⟩ : Shape).Idx) : flatEquiv q = flatIdx q := rfl

/-- The flat index's first coordinate, as a number. -/
theorem flatIdx_val (q : Fin 8 × (⟨2, ![8192, 128]⟩ : Shape).Idx) :
    (flatIdx q 0).val = (q.1.val * 8192 + (q.2 0).val) * 128 + (q.2 1).val := rfl

/-- A sum over the flat column is the sum over the eight tiles of the sums over each tile's rows and lanes. -/
theorem sum_flat {M : Type*} [AddCommMonoid M] (f : (⟨2, ![8388608, 1]⟩ : Shape).Idx → M) :
    ∑ i, f i = ∑ n : Fin 8, ∑ j : (⟨2, ![8192, 128]⟩ : Shape).Idx, f (flatIdx (n, j)) := by
  rw [← Equiv.sum_comp flatEquiv f, Fintype.sum_prod_type]
  rfl

end Cert.BinnedLoss

end
-- ==== Proof.KernelBlocks.lean ====
/-
  What the kernel's two input windows read, element by element.

  Before the kernel runs, each of the two angle arrays (8388608 × 1) is reshaped to 65536 rows of 128 lanes, row-major:
  row R, lane L of the reshaped array is element R·128 + L of the column. Grid point t of the eight reads rows
  t·8192 … t·8192 + 8191 of the reshaped array, all 128 lanes: the window's block number at point t is (t, 0), and a
  block's coordinate is block number × block size + the coordinate inside the block. So row r, lane l of the block read
  at point t is element (t·8192 + r)·128 + l of the original column — the flat index of (tile t, (r, l)).
-/
import proofs.«116623_j7164005449995_2_alg».proof.Proof.Gen.KernelIdeal.Frame
import proofs.«116623_j7164005449995_2_alg».proof.Proof.BinnedMeans
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Tile

open Cert.KernelIdeal Cert.KernelIdeal.Gen Cert.BinnedLoss Idealize.ShloMosaic Idealize.ShloMosaic.ValueIdx

variable (m : (ℓ : Loc nD τ sig) → Buf (Elt Ideal) ℓ)

/-- A grid point as one of the eight tiles. -/
def tileNo (t : Fin cfg0.N) : Fin 8 := ⟨t.val, lt_of_lt_of_eq t.isLt N_0⟩

/-- When the region is entered, the first window's array holds the first angle array reshaped to 65536 rows of 128. -/
theorem V_v0 (c : Dev nD) :
    (V m c main_v0 : S65536x128.Idx → EReal)
      = shapeCast S65536x128 (m ((c : Thread nD τ).loc main_arg0)) shapeCasts_S8388608x1_S65536x128 := by
  show StableHlo.after hostOps0 (fun b => m (c, b)) (Proc.devRef .tc main_v0) = _
  after_results
  rfl

/-- Likewise the second window's array holds the second angle array reshaped. -/
theorem V_v1 (c : Dev nD) :
    (V m c main_v1 : S65536x128.Idx → EReal)
      = shapeCast S65536x128 (m ((c : Thread nD τ).loc main_arg1)) shapeCasts_S8388608x1_S65536x128 := by
  show StableHlo.after hostOps0 (fun b => m (c, b)) (Proc.devRef .tc main_v1) = _
  after_results
  rfl

/-- Row n·8192 + r, lane l of the reshaped array is element (n·8192 + r)·128 + l of the flat column. -/
theorem read_flat (x : S8388608x1.Idx → EReal) (h : S8388608x1.ShapeCasts S65536x128) (n : Fin 8) (y : S8192x128.Idx)
    (k : S65536x128.Idx) (hk0 : (k 0).val = n.val * 8192 + (y 0).val) (hk1 : (k 1).val = (y 1).val) :
    shapeCast S65536x128 x h k = x (flatIdx (n, y)) := by
  refine shapeCast_apply x h k (flatIdx (n, y)) ?_
  have e1 : (S8388608x1.rowMajor (flatIdx (n, y))).val = ((n.val * 8192 + (y 0).val) * 128 + (y 1).val) * 1 + 0 :=
    Shape.rowMajor_val_two _
  have e2 : (S65536x128.rowMajor k).val = (k 0).val * 128 + (k 1).val := Shape.rowMajor_val_two _
  rw [e1, e2, hk0, hk1]
  omega

/-- The block of grid point t is row block number t, lane block 0: for both input windows. -/
theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 2) = t.val ∧ win0_1.index t (1 : Fin 2) = 0 :=
  (by decide +kernel : ∀ t : Fin grid0.N, _)

/-- What the first input window reads at grid point t, at row r and lane l of its block, is the first angle array's
    element (t·8192 + r)·128 + l. -/
theorem iblk0_apply (c : Dev nD) (t : Fin cfg0.N) (y : S8192x128.Idx) :
    (iblk m c 0 t : Vec Ideal S8192x128 .f32) y = m ((c : Thread nD τ).loc main_arg0) (flatIdx (tileNo t, y)) := by
  have hi := idx_facts0 t
  unfold iblk
  rw [View.read_apply]
  show V m c main_v0 (((cfg0.win 0).blk t).view.emb y) = _
  refine (congrFun (V_v0 m c) _).trans ?_
  refine read_flat _ _ (tileNo t) y _ ?_ ?_
  · show win0_0.index t 0 * 8192 + 1 * (y 0).val = t.val * 8192 + (y 0).val
    rw [hi.1]; omega
  · show win0_0.index t 1 * 128 + 1 * (y 1).val = (y 1).val
    rw [hi.2]; omega

/-- The same for the second input window and the second angle array. -/
theorem iblk1_apply (c : Dev nD) (t : Fin cfg0.N) (y : S8192x128.Idx) :
    (iblk m c 1 t : Vec Ideal S8192x128 .f32) y = m ((c : Thread nD τ).loc main_arg1) (flatIdx (tileNo t, y)) := by
  have hi := idx_facts1 t
  unfold iblk
  rw [View.read_apply]
  show V m c main_v1 (((cfg0.win 1).blk t).view.emb y) = _
  refine (congrFun (V_v1 m c) _).trans ?_
  refine read_flat _ _ (tileNo t) y _ ?_ ?_
  · show win0_1.index t 0 * 8192 + 1 * (y 0).val = t.val * 8192 + (y 0).val
    rw [hi.1]; omega
  · show win0_1.index t 1 * 128 + 1 * (y 1).val = (y 1).val
    rw [hi.2]; omega

end Cert.KernelIdeal.Tile

end
-- ==== Proof.KernelTail.lean ====
/-
  What the host computes after the call, as a function of the call's result array.

  The call leaves a 2×2×128 array: for each of the two cores a 2×128 slab, row 0 the core's bin counts and row 1 its
  bins' summed losses in lanes 0 … 9. The host adds the two cores' rows (the ten counts; the ten summed losses), forms
  the bins' weights from the counts and the accumulators, multiplies each weight by its bin's summed loss, adds the
  ten products from zero, and divides by N. Read at its one index the result is
      (0 + Σ_b weight_b · lossSum_b) / N.
  The intermediate results that the host's `where` functions pass through typed references are the same values.
-/
import proofs.«116623_j7164005449995_2_alg».proof.Proof.Gen.KernelIdeal.Frame
import proofs.«116623_j7164005449995_2_alg».proof.Proof.BinnedTotals
import Idealize.ShloMosaic.Lib.StableHlo.Run
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.StableHlo Idealize.ShloMosaic.ValueIdx

namespace Cert.KernelIdeal.Tile

open Cert.KernelIdeal Cert.KernelIdeal.Gen Cert.BinnedLoss

/-- The ten bin counts read off the 2×2×128 result array: row 0 of core 0's slab plus row 0 of core 1's, lanes 0 … 9. -/
def cntOf (A : FVec Ideal S2x2x128 .f32) : FVec Ideal S10 .f32 :=
  addf (shapeCast S10 (extractStridedSlice S1x1x10 ![0, 0, 0] A slices_S2x2x128_S1x1x10_0_0_0) shapeCasts_S1x1x10_S10)
    (shapeCast S10 (extractStridedSlice S1x1x10 ![1, 0, 0] A slices_S2x2x128_S1x1x10_1_0_0) shapeCasts_S1x1x10_S10)

/-- The ten bins' summed losses read off it: row 1 of the two slabs. -/
def lsOf (A : FVec Ideal S2x2x128 .f32) : FVec Ideal S10 .f32 :=
  addf (shapeCast S10 (extractStridedSlice S1x1x10 ![0, 1, 0] A slices_S2x2x128_S1x1x10_0_1_0) shapeCasts_S1x1x10_S10)
    (shapeCast S10 (extractStridedSlice S1x1x10 ![1, 1, 0] A slices_S2x2x128_S1x1x10_1_1_0) shapeCasts_S1x1x10_S10)

/-- What the host computes after the call, from the result array and the accumulators: the weights of the ten bins,
    each times its bin's summed loss, added from zero, over N. -/
def tailFn (A : FVec Ideal S2x2x128 .f32) (acc : FVec Ideal S10 .f32) : FVec Ideal S_ .f32 :=
  Host.divf (F := Ideal) (Host.reduceAdd (F := Ideal)
    (mulf (Host.powf (F := Ideal)
        (select (broadcastInDim S10 ![] bcast_S_S10 (anyBin bcast_S_S10 reducesTo_S10_S_d0 h_S_ natLt_1_32 (cntOf A)))
          (rawWeight bcast_S_S10 reducesTo_S10_S_d0 h_S_ natLt_1_32 (cntOf A) acc)
          (broadcastInDim S10 ![] bcast_S_S10 (constant (F := Ideal) S_ .f32 0x3F800000#32)))
        (broadcastInDim S10 ![] bcast_S_S10 (constant (F := Ideal) S_ .f32 0x3F400000#32)))
      (lsOf A))
    (constant (F := Ideal) S_ .f32 0x00000000#32) reducesTo_S10_S_d0 h_S_) (constant (F := Ideal) S_ .f32 0x4B000000#32)

/-- The host operations after the call leave the scalar result at `tailFn` of the result array and the accumulators,
    whatever else the memory holds. -/
theorem tail_eq (W : Valuation τ sig (Elt Ideal)) :
    StableHlo.after (List.flatten [hostOps1, hostOps1_1, hostOps1_2, hostOps1_3, hostOps1_4, hostOps1_5, hostOps1_6]) W (Proc.devRef .tc main_v41)
      = tailFn (W (Proc.devRef .tc main_v2)) (W (Proc.devRef .tc main_arg2)) := by
  simp only [hostOps1, hostOps1_1, hostOps1_2, hostOps1_3, hostOps1_4, hostOps1_5, hostOps1_6, List.flatten_cons, List.flatten_nil,
    List.append_nil, List.cons_append, List.nil_append]
  after_results_simp
  rfl

/-- The host's sum of a 10-vector from an initial scalar, at the extended reals: the initial value plus the ten entries. -/
theorem hostSum10 (x : FVec Ideal S10 .f32) (v : FVec Ideal S_ .f32) (j : S_.Idx) :
    Host.reduceAdd (F := Ideal) x v reducesTo_S10_S_d0 h_S_ j = v (Shape.Idx.first h_S_) + ∑ b : S10.Idx, x b := by
  simp only [Host.reduceAdd, Ideal.hostReduceAdd_def]
  exact Ideal.hostReduceAdd_total reducesTo_S10_S_d0 (fun b => b.elim0) x _ j

/-- A scalar spread over the ten bins reads the scalar at every bin. -/
theorem spread_apply {α : Type} (y : S_.Idx → α) (b : S10.Idx) :
    broadcastInDim S10 (![] : Fin 0 → Fin S10.rank) bcast_S_S10 y b = y ix0 :=
  broadcastInDim_apply _ bcast_S_S10 y b ix0 (fun a => a.elim0)

/-- One term of the tail's sum: (the raw weight, or a constant when the scalar predicate fails) to a constant power,
    times the bin's summed loss. -/
theorem weighted_apply (p : IVec S_ 1) (rwv ls : FVec Ideal S10 .f32) (k1 k2 : BitVec 32) (b : S10.Idx) :
    mulf (Host.powf (F := Ideal)
        (select (broadcastInDim S10 (![] : Fin 0 → Fin S10.rank) bcast_S_S10 p) rwv
          (broadcastInDim S10 (![] : Fin 0 → Fin S10.rank) bcast_S_S10 (constant (F := Ideal) S_ .f32 k1)))
        (broadcastInDim S10 (![] : Fin 0 → Fin S10.rank) bcast_S_S10 (constant (F := Ideal) S_ .f32 k2))) ls b
      = Ideal.pow (Scalar.select (p ix0) (rwv b) (Ideal.ofBits .f32 k1)) (Ideal.ofBits .f32 k2) * ls b := by
  have e1 := spread_apply p b
  have e2 := spread_apply (constant (F := Ideal) S_ .f32 k1) b
  have e3 := spread_apply (constant (F := Ideal) S_ .f32 k2) b
  show Ideal.pow (Scalar.select (broadcastInDim S10 (![] : Fin 0 → Fin S10.rank) bcast_S_S10 p b) (rwv b)
      (broadcastInDim S10 (![] : Fin 0 → Fin S10.rank) bcast_S_S10 (constant (F := Ideal) S_ .f32 k1) b))
    (broadcastInDim S10 (![] : Fin 0 → Fin S10.rank) bcast_S_S10 (constant (F := Ideal) S_ .f32 k2) b) * ls b = _
  rw [e1, e2, e3]
  rfl

/-- The tail's result: zero plus the sum over the ten bins of the bin's weight times its summed loss, over N. -/
theorem tailFn_apply (A : FVec Ideal S2x2x128 .f32) (acc : FVec Ideal S10 .f32) (j : S_.Idx) :
    tailFn A acc j
      = Ideal.div (Ideal.ofBits .f32 0x00000000#32
          + ∑ b : S10.Idx, weight bcast_S_S10 reducesTo_S10_S_d0 h_S_ natLt_1_32 (cntOf A) acc b * lsOf A b)
        (Ideal.ofBits .f32 0x4B000000#32) := by
  unfold tailFn
  show Ideal.div (Host.reduceAdd (F := Ideal) _ _ reducesTo_S10_S_d0 h_S_ j) (Ideal.ofBits .f32 0x4B000000#32) = _
  rw [hostSum10]
  refine congrArg (fun s => Ideal.div (Ideal.ofBits .f32 0x00000000#32 + s) (Ideal.ofBits .f32 0x4B000000#32)) ?_
  exact Finset.sum_congr rfl fun b _ => (weighted_apply _ _ _ _ _ b).trans rfl

/-- Bin `b` as a lane of the 128. -/
def lane (b : S10.Idx) : Fin 128 := ⟨(b 0).val, by have h : (b 0).val < 10 := (b 0).isLt; omega⟩

/-- A 1×1×10 slab of the result array at offset (core k, row r, lane 0), as a 10-vector, at bin `b`: the array at
    (k, r, b). -/
theorem slab_apply (A : FVec Ideal S2x2x128 .f32) (off : Fin 3 → Nat) (k r : Fin 2) (hoff : off = ![k.val, r.val, 0])
    (h : S2x2x128.Slices off S1x1x10) (b : S10.Idx) :
    shapeCast S10 (extractStridedSlice S1x1x10 off A h) shapeCasts_S1x1x10_S10 b = A (ix3 k r (lane b)) := by
  subst hoff
  rw [shapeCast_apply _ shapeCasts_S1x1x10_S10 b (ix3 (0 : Fin 1) (0 : Fin 1) (b 0)) (by
    rw [Shape.rowMajor_val_one, Shape.rowMajor_val_three]; show (0 * 1 + 0) * 10 + (b 0).val = (b 0).val; omega)]
  unfold extractStridedSlice
  refine congrArg A (funext fun a => Fin.ext ?_)
  match a with
  | ⟨0, _⟩ => show k.val + 0 = k.val; omega
  | ⟨1, _⟩ => show r.val + 0 = r.val; omega
  | ⟨2, _⟩ => show 0 + (b 0).val = (b 0).val; omega

/-- The counts read off the array: the two cores' row 0. -/
theorem cntOf_apply (A : FVec Ideal S2x2x128 .f32) (b : S10.Idx) :
    cntOf A b = A (ix3 (0 : Fin 2) (0 : Fin 2) (lane b)) + A (ix3 (1 : Fin 2) (0 : Fin 2) (lane b)) :=
  congrArg₂ (· + ·) (slab_apply A ![0, 0, 0] 0 0 rfl slices_S2x2x128_S1x1x10_0_0_0 b)
    (slab_apply A ![1, 0, 0] 1 0 rfl slices_S2x2x128_S1x1x10_1_0_0 b)

/-- The summed losses read off the array: the two cores' row 1. -/
theorem lsOf_apply (A : FVec Ideal S2x2x128 .f32) (b : S10.Idx) :
    lsOf A b = A (ix3 (0 : Fin 2) (1 : Fin 2) (lane b)) + A (ix3 (1 : Fin 2) (1 : Fin 2) (lane b)) :=
  congrArg₂ (· + ·) (slab_apply A ![0, 1, 0] 0 1 rfl slices_S2x2x128_S1x1x10_0_1_0 b)
    (slab_apply A ![1, 1, 0] 1 1 rfl slices_S2x2x128_S1x1x10_1_1_0 b)

end Cert.KernelIdeal.Tile

end
-- ==== Proof.KernelSums.lean ====
/-
  The two ten-vectors the host reads off the kernel's result array, as sums over all the angle pairs.

  The result array holds, at (core k, row r, lane l), zero plus the four tiles of core k's four grid points. Row 0 of a
  grid point's tile counts, lane by lane, the pairs of its two blocks that fall in each bin, and row 1 sums their
  losses; the two blocks of grid point t are tile t of the two angle arrays. The host adds the two cores' rows, so at
  bin b it reads (0 + c₀ + c₁ + c₂ + c₃) + (0 + c₄ + c₅ + c₆ + c₇), cₙ the count (or summed loss) of bin b within tile
  n — which, re-associated, is the sum over the eight tiles, that is over every pair of the two arrays.
-/
import proofs.«116623_j7164005449995_2_alg».proof.Proof.KernelTile
import proofs.«116623_j7164005449995_2_alg».proof.Proof.KernelArray
import proofs.«116623_j7164005449995_2_alg».proof.Proof.KernelBlocks
import proofs.«116623_j7164005449995_2_alg».proof.Proof.KernelTail

noncomputable section

open scoped BigOperators
open Idealize.ShloMosaic Idealize.ShloMosaic.TcCoe Idealize.SL.Sem

namespace Cert.KernelIdeal.Tile

open Cert.KernelIdeal Cert.KernelIdeal.Gen Cert.BinnedLoss Idealize.ShloMosaic Idealize.ShloMosaic.ValueIdx

variable (m : (ℓ : Loc nD τ sig) → Buf (Elt Ideal) ℓ)

/-- The angle pair number (tile n, pair y) of the predictions / of the targets. -/
abbrev predOf (c : Dev nD) (q : Fin 8 × S8192x128.Idx) : EReal := m ((c : Thread nD τ).loc main_arg0) (flatIdx q)
abbrev targOf (c : Dev nD) (q : Fin 8 × S8192x128.Idx) : EReal := m ((c : Thread nD τ).loc main_arg1) (flatIdx q)

/-- How many pairs of tile n fall in bin b, and the summed loss of those pairs. -/
def cntAt (c : Dev nD) (n : Fin 8) (b : S10.Idx) : EReal :=
  ∑ y : S8192x128.Idx, ind (bin (predOf m c (n, y)) (targOf m c (n, y))) (word b)
def lsAt (c : Dev nD) (n : Fin 8) (b : S10.Idx) : EReal :=
  ∑ y : S8192x128.Idx, ind (bin (predOf m c (n, y)) (targOf m c (n, y))) (word b) * loss (predOf m c (n, y)) (targOf m c (n, y))

/-- Row 0 of grid point t's tile at bin b's lane counts the pairs of tile t in bin b: the point's two blocks are tile
    t of the two angle arrays. -/
theorem tileAt_count (c : Dev nD) (t : Fin cfg0.N) (b : S10.Idx) :
    tileAt m c t (ix2 (0 : Fin 2) (lane b)) = cntAt m c (tileNo t) b := by
  unfold tileAt cntAt
  refine (tile_count (iblk m c 0 t) (iblk m c 1 t) (lane b)).trans ?_
  rw [if_pos (show (lane b).val < 10 from (b 0).isLt)]
  refine Finset.sum_congr rfl fun y _ => ?_
  exact congrArg₂ (fun p q => ind (bin p q) (word b)) (iblk0_apply m c t y) (iblk1_apply m c t y)

/-- Row 1 of it sums the losses of those pairs. -/
theorem tileAt_loss (c : Dev nD) (t : Fin cfg0.N) (b : S10.Idx) :
    tileAt m c t (ix2 (1 : Fin 2) (lane b)) = lsAt m c (tileNo t) b := by
  unfold tileAt lsAt
  refine (tile_loss (iblk m c 0 t) (iblk m c 1 t) (lane b)).trans ?_
  rw [if_pos (show (lane b).val < 10 from (b 0).isLt)]
  refine Finset.sum_congr rfl fun y _ => ?_
  exact congrArg₂ (fun p q => ind (bin p q) (word b) * loss p q) (iblk0_apply m c t y) (iblk1_apply m c t y)

/-- Core k's entry of the result array at row 0, bin b's lane: zero plus the four counts of the core's four tiles. -/
theorem finalArr_count (c : Dev nD) (k : Fin 2) (b : S10.Idx) :
    finalArr m c (ix3 k (0 : Fin 2) (lane b))
      = 0 + cntAt m c (tileNo (pt k 0)) b + cntAt m c (tileNo (pt k 1)) b + cntAt m c (tileNo (pt k 2)) b
        + cntAt m c (tileNo (pt k 3)) b := by
  show Ideal.ofBits .f32 0x00000000#32 + tileAt m c (pt k 0) (ix2 (0 : Fin 2) (lane b))
    + tileAt m c (pt k 1) (ix2 (0 : Fin 2) (lane b)) + tileAt m c (pt k 2) (ix2 (0 : Fin 2) (lane b))
    + tileAt m c (pt k 3) (ix2 (0 : Fin 2) (lane b)) = _
  rw [tileAt_count m c (pt k 0) b, tileAt_count m c (pt k 1) b, tileAt_count m c (pt k 2) b,
    tileAt_count m c (pt k 3) b, zero_f32]

/-- At row 1: zero plus the four summed losses. -/
theorem finalArr_loss (c : Dev nD) (k : Fin 2) (b : S10.Idx) :
    finalArr m c (ix3 k (1 : Fin 2) (lane b))
      = 0 + lsAt m c (tileNo (pt k 0)) b + lsAt m c (tileNo (pt k 1)) b + lsAt m c (tileNo (pt k 2)) b
        + lsAt m c (tileNo (pt k 3)) b := by
  show Ideal.ofBits .f32 0x00000000#32 + tileAt m c (pt k 0) (ix2 (1 : Fin 2) (lane b))
    + tileAt m c (pt k 1) (ix2 (1 : Fin 2) (lane b)) + tileAt m c (pt k 2) (ix2 (1 : Fin 2) (lane b))
    + tileAt m c (pt k 3) (ix2 (1 : Fin 2) (lane b)) = _
  rw [tileAt_loss m c (pt k 0) b, tileAt_loss m c (pt k 1) b, tileAt_loss m c (pt k 2) b,
    tileAt_loss m c (pt k 3) b, zero_f32]

/-- The two cores' four-term sums over zero are the sum over the eight tiles: re-association only. -/
theorem core_sums (f : Fin 8 → EReal) :
    (0 + f 0 + f 1 + f 2 + f 3) + (0 + f 4 + f 5 + f 6 + f 7) = ∑ n : Fin 8, f n := by
  rw [Fin.sum_univ_eight]
  simp only [zero_add, add_assoc]

/-- The counts the host tail reads off the result array are the bin counts of all the angle pairs. -/
theorem cnt_final (c : Dev nD) :
    cntOf (finalArr m c) = counts (fun q : Fin 8 × S8192x128.Idx => bin (predOf m c q) (targOf m c q)) := by
  funext b
  rw [cntOf_apply, finalArr_count, finalArr_count]
  show _ = ∑ q : Fin 8 × S8192x128.Idx, ind (bin (predOf m c q) (targOf m c q)) (word b)
  rw [Fintype.sum_prod_type]
  exact core_sums (fun n => cntAt m c n b)

/-- The summed losses it reads are the bins' summed losses of all the angle pairs. -/
theorem ls_final (c : Dev nD) :
    lsOf (finalArr m c) = lossSums (fun q : Fin 8 × S8192x128.Idx => bin (predOf m c q) (targOf m c q))
      (fun q => loss (predOf m c q) (targOf m c q)) := by
  funext b
  rw [lsOf_apply, finalArr_loss, finalArr_loss]
  show _ = ∑ q : Fin 8 × S8192x128.Idx, ind (bin (predOf m c q) (targOf m c q)) (word b) * loss (predOf m c q) (targOf m c q)
  rw [Fintype.sum_prod_type]
  exact core_sums (fun n => lsAt m c n b)

end Cert.KernelIdeal.Tile

end
-- ==== Proof.KernelValue.lean ====
/-
  The value of the kernel program: its result is the weighted mean of the losses over all pairs.

  The frame run leaves, in its post, the output window's final array and everything else as the host operations after
  the call compute it. That array is the two cores' accumulated tiles; the host's tail turns it into
  (0 + Σ_b weight_b · lossSum_b) / N with the counts and summed losses taken over all eight tiles' pairs; summing bin
  by bin is summing pair by pair; and the pairs of the eight tiles, in (tile, row, lane) order, are exactly the
  8388608 entries of the argument columns.
-/
import proofs.«116623_j7164005449995_2_alg».proof.Proof.KernelSums
import proofs.«116623_j7164005449995_2_alg».proof.Proof.BinnedMeans
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.StableHlo Idealize.ShloMosaic.ValueIdx
open Idealize.ShloMosaic.Pipeline (Dat)

namespace Cert.KernelIdeal.Tile

open Cert.KernelIdeal Cert.KernelIdeal.Gen Cert.BinnedLoss

variable (m : (ℓ : Loc nD τ sig) → Buf (Elt Ideal) ℓ)

/-- The call's result array, as the host operations after the call find it: the final array of the output window. -/
theorem array_after (c : Dev nD) :
    Pipeline.withArrays (cfgs 0).spec c (V0 m c) (fun w => (dats m 0 c).arrAt w (cfgs 0).N) (Proc.devRef .tc main_v2) = finalArr m c :=
  (Pipeline.withArrays_arr spec0 launch0.win.arr_inj c _ _ 2).trans (final2 m c)

/-- The accumulators, as the host operations after the call find them: as launched. -/
theorem acc_after (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- The scalar the program returns: the weighted mean of the losses, every loss times the weight of its own bin, over
    all 8388608 pairs of the two argument columns. -/
theorem result_eq (c : Dev nD) :
    Pipeline.afterTail₀ cfgs (dats m) 0 (V0 m) [hostOps1, hostOps1_1, hostOps1_2, hostOps1_3, hostOps1_4, hostOps1_5, hostOps1_6] c main_v41
      = fun _ => meanByElements bcast_S_S10 reducesTo_S10_S_d0 h_S_ natLt_1_32
          (fun j : S8388608x1.Idx => m ((c : Thread nD τ).loc main_arg0) j) (fun j => m ((c : Thread nD τ).loc main_arg1) j)
          (m ((c : Thread nD τ).loc main_arg2)) := by
  unfold Pipeline.afterTail₀
  rw [tail_eq, array_after, acc_after]
  funext j
  rw [tailFn_apply, cnt_final, ls_final]
  refine (mean_eq bcast_S_S10 reducesTo_S10_S_d0 h_S_ natLt_1_32 (predOf m c) (targOf m c) (m ((c : Thread nD τ).loc main_arg2))).trans ?_
  exact meanByElements_equiv bcast_S_S10 reducesTo_S10_S_d0 h_S_ natLt_1_32 flatEquiv
    (fun j : S8388608x1.Idx => m ((c : Thread nD τ).loc main_arg0) j) (fun j => m ((c : Thread nD τ).loc main_arg1) j)
    (m ((c : Thread nD τ).loc main_arg2))

/-- The run, read: every weakly fair execution of the program terminates with its result at that mean and its three
    arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v41)
          = (fun _ => meanByElements bcast_S_S10 reducesTo_S10_S_d0 h_S_ natLt_1_32
              (fun j : S8388608x1.Idx => m ((c.tc : Thread nD τ).loc main_arg0) j) (fun j => m ((c.tc : Thread nD τ).loc main_arg1) j)
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v41 (Pipeline.mem_restRefs_of main_v41 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tile

end
-- ==== Proof.LibScatterCount.lean ====
/-
  A host scatter with an add body whose every update is one element, addressed by a one-component
  index: the operand has N elements, there are M updates, update j lands on the element whose number
  is the signed reading of index word j (and is dropped when that number is outside 0 … N − 1).
  On the extended reals the result at element i is the operand's element plus the sum of the updates
  whose index word reads i.
-/
import Idealize.ShloMosaic.PureOps.Ideal
import Idealize.ShloMosaic.PureOps.Ideal.Laws
import Idealize.ShloMosaic.Lib.ValueIdx

noncomputable section

namespace Cert.Lib.ScatterCount

open Idealize.ShloMosaic Idealize.ShloMosaic.ValueIdx

variable {N M w : Nat}

/-- The dimension numbers of such a scatter: no window axes in the updates, the operand's one axis
    inserted and addressed by component 0 of the index vector, the index vector along axis 1. -/
abbrev dims (wf : ScatterDims.WF ⟨1, ![N]⟩ ⟨2, ![M, 1]⟩ ⟨1, ![M]⟩ [] [0] [0] 1) :
    ScatterDims ⟨1, ![N]⟩ ⟨2, ![M, 1]⟩ ⟨1, ![M]⟩ :=
  ScatterDims.mk [] [0] [0] 1 wf

/-- Update j reads its index at row j of the M×1 index array. -/
theorem siIdx_eq (wf : ScatterDims.WF ⟨1, ![N]⟩ ⟨2, ![M, 1]⟩ ⟨1, ![M]⟩ [] [0] [0] 1)
    (j : (⟨1, ![M]⟩ : Shape).Idx) (c : Fin (dims wf).scatterDimsToOperandDims.length) :
    (dims wf).siIdx j c = ix2 (j 0) 0 := by
  funext b
  apply Fin.ext
  match b with
  | ⟨0, _⟩ => rfl
  | ⟨1, _⟩ =>
    have : c.val < 1 := c.isLt
    have : c.val = 0 := by omega
    show c.val = 0
    exact this

/-- The start of update j on the operand's axis is the signed reading of its index word. -/
theorem start_eq (wf : ScatterDims.WF ⟨1, ![N]⟩ ⟨2, ![M, 1]⟩ ⟨1, ![M]⟩ [] [0] [0] 1)
    (j : (⟨1, ![M]⟩ : Shape).Idx) (idx : IVec ⟨2, ![M, 1]⟩ w) (a : Fin 1) :
    (dims wf).start j idx a = (idx (ix2 (j 0) 0)).toInt := by
  unfold ScatterDims.start
  have ha : a ∈ ([0] : List (Fin 1)) := by rw [Fin.fin_one_eq_zero a]; exact List.mem_singleton_self _
  rw [dif_pos ha]
  exact congrArg (fun k => (idx k).toInt) (siIdx_eq wf j _)

/-- An update has no extent along the operand's axis. -/
theorem window_eq (wf : ScatterDims.WF ⟨1, ![N]⟩ ⟨2, ![M, 1]⟩ ⟨1, ![M]⟩ [] [0] [0] 1)
    (j : (⟨1, ![M]⟩ : Shape).Idx) (a : Fin 1) : (dims wf).window j a = 0 := by
  unfold ScatterDims.window
  rw [dif_neg]
  show a ∉ (List.finRange 1).filter (· ∉ ([0] : List (Fin 1)))
  rw [Fin.fin_one_eq_zero a]
  decide

/-- Update j lands on element i exactly when its index word, read signed, is i. -/
theorem resultIdx_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (dims wf).resultIdx? j idx = some i ↔ (idx (ix2 (j 0) 0)).toInt = ((i 0).val : Int) := by
  unfold ScatterDims.resultIdx?
  have hlt : (i 0).val < N := (i 0).isLt
  constructor
  · intro h
    split_ifs at h with hc
    have h0 : ((dims wf).start j idx 0 + ((dims wf).window j 0 : Nat)).toNat = (i 0).val :=
      congrArg (fun k => (k 0).val) (Option.some.inj h)
    have hc0 := hc 0
    rw [start_eq, window_eq] at hc0 h0
    omega
  · intro h
    have hc : ∀ a : Fin 1, 0 ≤ (dims wf).start j idx a + ((dims wf).window j a : Nat)
        ∧ (dims wf).start j idx a + ((dims wf).window j a : Nat) < ((⟨1, ![N]⟩ : Shape).size a : Nat) := fun a => by
      have := Fin.fin_one_eq_zero a; subst this
      rw [start_eq, window_eq, h]
      show (0 : Int) ≤ ((i 0).val : Int) + ((0 : Nat) : Int) ∧ ((i 0).val : Int) + ((0 : Nat) : Int) < (N : Int)
      omega
    rw [dif_pos hc]
    congr 1
    funext a
    apply Fin.ext
    have := Fin.fin_one_eq_zero a; subst this
    show ((dims wf).start j idx 0 + ((dims wf).window j 0 : Nat)).toNat = (i 0).val
    rw [start_eq, window_eq, h]
    omega

/-- The accumulating scatter at element i: the operand's element plus the updates whose index word reads i. -/
theorem scatterAdd_apply (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (dims wf) x idx upd i
      = x i + ∑ j : (⟨1, ![M]⟩ : Shape).Idx, if (idx (ix2 (j 0) 0)).toInt = ((i 0).val : Int) then upd j else 0 := by
  unfold Ideal.hostScatterAdd
  rw [Finset.sum_filter]
  congr 1
  refine Finset.sum_congr rfl fun j _ => ?_
  simp only [resultIdx_iff]

end Cert.Lib.ScatterCount

end
-- ==== Proof.RefValue.lean ====
/-
  The reference program's result, read stage by stage at the extended reals.

  Element j of the two angle arrays has a bin (a word between 0 and 9) and a smooth-L1 loss. The
  program counts the elements of every bin by adding a one at each element's bin, turns the ten counts and
  the ten accumulators into a weight per bin, looks every element's weight up at its own bin, and divides
  the sum of loss times weight by the number of elements. Each stage below says which named function of the
  inputs one intermediate array is:
    * the clamped bin index of element j is  bin (x0 j) (x1 j);
    * the selected loss of element j is  loss (x0 j) (x1 j);
    * the index arrays the program normalises ("add ten where negative") are the bins again, because a bin
      is never negative;
    * the accumulated ones are  counts  of the bins: bin b receives a one from exactly the elements whose
      word is bin b's word;
    * the per-bin weight array and the "some bin is non-empty" bit are  rawWeight  and  anyBin  of the counts;
    * the looked-up, selected and powered weight of element j is  weight  at element j's bin: a word below
      ten, read signed and clamped into 0 … 9, addresses itself;
    * so the result is  meanByElements.
-/
import proofs.«116623_j7164005449995_2_alg».proof.Proof.RefReadP
import proofs.«116623_j7164005449995_2_alg».proof.Proof.BinnedFacts
import proofs.«116623_j7164005449995_2_alg».proof.Proof.LibScatterCount
import Idealize.ShloMosaic.Lib.ValueIdx
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Cert.ReferenceIdeal.ReadP Cert.BinnedLoss Idealize.ShloMosaic Idealize.ShloMosaic.ValueIdx

/-- The two angle arrays' type, and the accumulators'. -/
abbrev X1 := (⟨S8388608x1, .f32⟩ : BufTy).Contents (Elt Ideal)
abbrev X2 := (⟨S10, .f32⟩ : BufTy).Contents (Elt Ideal)

/-- The clamped bin index of element i is the bin of its two angles. -/
theorem bin_stage (x0 x1 : X1) (i : S8388608x1.Idx) :
    val_main_v11 (F := Ideal) x0 x1 i = bin (x0 i) (x1 i) := by
  rw [val_main_v11_apply, val_main_call0_v4_apply, val_main_call0_v3_apply, val_main_c_2_apply,
    val_main_call0_v2_apply, val_main_call0_v1_apply, val_main_call0_v0_apply, val_main_c_apply,
    val_main_v10_apply, val_main_v9_apply, val_main_v8_apply, val_main_v7_apply, val_main_cst_1_apply,
    val_main_v6_apply, val_main_v5_apply, val_main_cst_0_apply, val_main_v4_apply, val_main_v3_apply,
    val_main_v2_apply, val_main_cst_apply, val_main_v1_apply, val_main_v0_apply]
  rfl

/-- The selected loss of element i is the smooth-L1 loss of its two angles. -/
theorem loss_stage (x0 x1 : X1) (i : S8388608x1.Idx) :
    val_main_v66 (F := Ideal) x0 x1 i = loss (x0 i) (x1 i) := by
  rw [val_main_v66_apply, val_main_v65_apply, val_main_v64_apply, val_main_cst_24_apply,
    val_main_v63_apply, val_main_v62_apply, val_main_cst_23_apply, val_main_v61_apply, val_main_v60_apply,
    val_main_v59_apply, val_main_cst_22_apply, val_main_v58_apply, val_main_v57_apply, val_main_cst_21_apply,
    val_main_v56_apply, val_main_v55_apply]
  rfl

/-- A bin is not negative, so the comparison "bin < 0" read signed answers the bit 0. -/
theorem cmpi_slt_bin (p t : EReal) : IntOp.cmpi .slt (bin p t) 0#32 = 0#1 := by
  have h : (bin p t).slt 0#32 = false := by
    unfold BitVec.slt
    rw [bin_toInt]
    simp
  show BitVec.ofBool ((bin p t).slt 0#32) = 0#1
  rw [h]; rfl

/-- Flattening an 8388608×1 index to its row and reading the row back as a column index changes nothing. -/
theorem idx13_19 (j : S8388608x1.Idx) : idx_main_v13 (idx_main_v19 j) = j := by
  funext a
  match a with
  | ⟨0, _⟩ => exact Fin.ext (Nat.div_one _)
  | ⟨1, _⟩ => exact Fin.ext (by have := idx2_lt1 j; show 0 = (j 1).val; omega)

/-- The scatter's index word of element j is the bin of element j. -/
theorem idx_stage (x0 x1 : X1) (j : S8388608x1.Idx) :
    val_main_v19 (F := Ideal) x0 x1 j = bin (x0 j) (x1 j) := by
  rw [val_main_v19_apply, val_main_v18_apply, val_main_v15_apply, val_main_v14_apply, val_main_c_4_apply,
    val_main_v13_apply, idx13_19, bin_stage, cmpi_slt_bin, select_zero]

/-- A bin read signed is the number of bin b exactly when it is bin b's word. -/
theorem toInt_eq_iff (p t : EReal) (b : V10.Idx) :
    (bin p t).toInt = ((b 0).val : Int) ↔ bin p t = word b := by
  have hb : (b 0).val < 10 := (b 0).isLt
  rw [bin_toInt]
  constructor
  · intro h
    have h' : (bin p t).toNat = (b 0).val := by exact_mod_cast h
    apply BitVec.eq_of_toNat_eq
    rw [h']; unfold word; rw [BitVec.toNat_ofNat]; omega
  · intro h
    rw [h]; unfold word; rw [BitVec.toNat_ofNat]
    congr 1
    omega

/-- The rows of an 8388608×1 array are its elements. -/
def rowEquiv : (⟨1, ![8388608]⟩ : Shape).Idx ≃ S8388608x1.Idx where
  toFun j := ix2 (j 0) 0
  invFun k := ix1 (k 0)
  left_inv j := (eq_ix1 j).symm
  right_inv k := by
    funext a
    match a with
    | ⟨0, _⟩ => rfl
    | ⟨1, _⟩ => exact Fin.ext (by have := idx2_lt1 k; show 0 = (k 1).val; omega)

/-- The accumulated ones are the bin counts: the zero start contributes nothing, and element j adds its one to
    bin b exactly when its bin's word is bin b's word. -/
theorem counts_stage (x0 x1 : X1) :
    val_main_v21 (F := Ideal) x0 x1 = counts (fun j : S8388608x1.Idx => bin (x0 j) (x1 j)) := by
  have hfun : val_main_v21 (F := Ideal) x0 x1
      = Ideal.hostScatterAdd (Cert.Lib.ScatterCount.dims scatter_S10_S8388608x1_S8388608_n_0_0_1_wf)
          (val_main_v12 (F := Ideal)) (val_main_v19 (F := Ideal) x0 x1) (val_main_v20 (F := Ideal)) := rfl
  funext b
  have h12 : val_main_v12 (F := Ideal) b = 0 := by
    rw [val_main_v12_apply, val_main_cst_3_apply]; exact zero_f32
  have h20 : ∀ j, val_main_v20 (F := Ideal) j = 1 := fun j => by
    rw [val_main_v20_apply, val_main_cst_6_apply]; exact one_f32.trans EReal.coe_one
  rw [hfun, Cert.Lib.ScatterCount.scatterAdd_apply, h12, zero_add]
  show _ = ∑ j : S8388608x1.Idx, ind (bin (x0 j) (x1 j)) (word b)
  refine Fintype.sum_equiv rowEquiv _ _ fun j => ?_
  show _ = ind (bin (x0 (ix2 (j 0) 0)) (x1 (ix2 (j 0) 0))) (word b)
  rw [idx_stage, h20, ind_eq]
  by_cases h : bin (x0 (ix2 (j 0) 0)) (x1 (ix2 (j 0) 0)) = word b
  · rw [if_pos h, if_pos ((toInt_eq_iff _ _ b).mpr h)]
  · rw [if_neg h, if_neg (fun h' => h ((toInt_eq_iff _ _ b).mp h'))]

/-- The per-bin weight array is the raw weight of the counts and the accumulators: the same operations in the
    same order. -/
theorem rawWeight_stage (x0 x1 : X1) (x2 : X2) :
    val_main_v42 (F := Ideal) x0 x1 x2
      = rawWeight bcast_S_S10 reducesTo_S10_S_d0 h_S_ natLt_1_32 (val_main_v21 (F := Ideal) x0 x1) x2 := by
  rfl

/-- The scalar condition is "some bin is non-empty" of the counts. -/
theorem anyBin_stage (x0 x1 : X1) :
    val_main_v43 (F := Ideal) x0 x1
      = anyBin bcast_S_S10 reducesTo_S10_S_d0 h_S_ natLt_1_32 (val_main_v21 (F := Ideal) x0 x1) := by
  rfl

/-- The gather's start index of element i sits at element i's own index. -/
theorem idx49_take (i : S8388608x1.Idx) : idx_main_v49 (takeIdx i) = i := by
  funext a
  match a with
  | ⟨0, _⟩ => exact Fin.ext rfl
  | ⟨1, _⟩ => exact Fin.ext (by have := idx2_lt1 i; show 0 = (i 1).val; omega)

/-- The gather's start word of element i is the bin of element i. -/
theorem start_stage (x0 x1 : X1) (i : S8388608x1.Idx) :
    val_main_v49 (F := Ideal) x0 x1 (takeIdx i) = bin (x0 i) (x1 i) := by
  rw [val_main_v49_apply, idx49_take, val_main_v48_apply, val_main_v45_apply, val_main_v44_apply,
    val_main_c_17_apply, bin_stage, cmpi_slt_bin, select_zero]

/-- A word below ten, read signed and clamped into 0 … 9, addresses its own bin. -/
theorem take_idx_eq (w : BitVec 32) (h : w.toNat < 10) (hi : w.toInt = (w.toNat : Int))
    (hlt : min w.toInt.toNat (10 - 1) < 10) :
    (ix1 ⟨min w.toInt.toNat (10 - 1), hlt⟩ : V10.Idx) = binIdx w := by
  unfold binIdx
  refine congrArg (ix1 (n := 10)) (Fin.ext ?_)
  show min w.toInt.toNat (10 - 1) = w.toNat % 10
  rw [hi]; omega

/-- The gathered raw weight of element i is the raw weight of element i's bin. -/
theorem gather_stage (x0 x1 : X1) (x2 : X2) (i : S8388608x1.Idx) :
    val_main_v50 (F := Ideal) x0 x1 x2 i
      = val_main_v42 (F := Ideal) x0 x1 x2 (binIdx (bin (x0 i) (x1 i))) := by
  have hfun : val_main_v50 (F := Ideal) x0 x1 x2
      = Host.gather (takeDims 10 8388608 1 gather_S10_S8388608x1x1_S8388608x1_n_0_n_n_0_2_1_wf)
          (val_main_v42 (F := Ideal) x0 x1 x2) (val_main_v49 (F := Ideal) x0 x1) := rfl
  rw [hfun, gather_take_apply (by decide)]
  refine congrArg (val_main_v42 (F := Ideal) x0 x1 x2) ?_
  have hs := start_stage x0 x1 i
  rw [← hs]
  exact take_idx_eq _ (by rw [hs]; exact bin_lt _ _) (by rw [hs]; exact bin_toInt _ _) _

/-- The weight of element i — the raw weight looked up at its bin, replaced by one when every bin is empty,
    to the power 3/4 — is the weight of its bin. -/
theorem weight_stage (x0 x1 : X1) (x2 : X2) (i : S8388608x1.Idx) :
    val_main_v54 (F := Ideal) x0 x1 x2 i
      = weight bcast_S_S10 reducesTo_S10_S_d0 h_S_ natLt_1_32 (val_main_v21 (F := Ideal) x0 x1) x2
          (binIdx (bin (x0 i) (x1 i))) := by
  have h52 : val_main_v52 (F := Ideal) x0 x1 x2 i
      = Scalar.select (val_main_v43 (F := Ideal) x0 x1 ix0) (val_main_v50 (F := Ideal) x0 x1 x2 i)
          (val_main_v51 (F := Ideal) i) := by
    unfold val_main_v52
    rw [select_apply]
    congr 1
  rw [val_main_v54_apply, h52, val_main_v53_apply, val_main_cst_20_apply, val_main_v51_apply,
    val_main_cst_19_apply, gather_stage, rawWeight_stage, anyBin_stage]
  rfl

/-- The reference's result is the mean of the losses, each weighted by its own bin's weight. -/
theorem ref_value (x0 x1 : (⟨S8388608x1, .f32⟩ : BufTy).Contents (Elt Ideal)) (x2 : (⟨S10, .f32⟩ : BufTy).Contents (Elt Ideal)) :
    val_main_v69 (F := Ideal) x0 x1 x2
      = fun _ => meanByElements bcast_S_S10 reducesTo_S10_S_d0 h_S_ natLt_1_32 (fun j : S8388608x1.Idx => x0 j) (fun j => x1 j) x2 := by
  funext i
  rw [val_main_v69_apply, val_main_v68_apply]
  unfold meanByElements
  rw [← counts_stage x0 x1]
  have hs : ∀ j : S8388608x1.Idx, val_main_v67 (F := Ideal) x0 x1 x2 j
      = loss (x0 j) (x1 j) * weight bcast_S_S10 reducesTo_S10_S_d0 h_S_ natLt_1_32 (val_main_v21 (F := Ideal) x0 x1) x2
          (binIdx (bin (x0 j) (x1 j))) := by
    intro j
    rw [val_main_v67_apply, loss_stage, weight_stage]
    rfl
  rw [Finset.sum_congr rfl (fun j _ => hs j)]
  rfl

end Cert.ReferenceIdeal.RefValue

end
-- ==== Proof.lean ====
/-
  The five claims about a binned, weighted smooth-L1 loss computed two ways.

  Both programs take two columns of 8388608 angles (predictions and targets) and ten running accumulators. Every
  pair of angles has a bin 0 … 9 (its angular gap folded to [0, 180], scaled and floored) and a smooth-L1 loss; the
  ten bin counts and the accumulators give every bin a weight; the result is the mean over all pairs of loss times
  the weight of the pair's bin.
    * The reference forms the counts by a scatter-add of ones, gathers each pair's weight, multiplies and averages.
    * The kernel walks the pairs tile by tile (two cores, four tiles each); per tile and per bin it sums the bin's 0/1
      mask (the count) and mask times loss (the bin's summed loss) and accumulates both in a 2×128 block per core;
      the host then adds the two cores' blocks, forms the ten weights once, and takes the ten-term sum of weight times
      summed loss over N.
  On the extended reals the two are the same number: Σ_j loss_j · W(bin_j) = Σ_b W_b · Σ_j [bin_j = b] · loss_j.
  Re-grouping a sum is always legal there; pulling W_b out of the inner sum is legal because every summand
  [bin_j = b] · loss_j is non-negative (the loss is half a square below the knee and |d| - 1/2 ≥ 1/2 above it), so
  no finiteness of the inputs is used. The frames are the generated ones (the reference's is its run with the result
  dropped); the idealization rewrote nothing, so the preservation claim is trivial.
-/
import proofs.«116623_j7164005449995_2_alg».proof.Defs
import proofs.«116623_j7164005449995_2_alg».proof.Proof.Gen.Kernel
import proofs.«116623_j7164005449995_2_alg».proof.Proof.Gen.Kernel.Skeleton
import proofs.«116623_j7164005449995_2_alg».proof.Proof.Gen.Kernel.Launch
import proofs.«116623_j7164005449995_2_alg».proof.Proof.Gen.Kernel.Points
import proofs.«116623_j7164005449995_2_alg».proof.Proof.Gen.Kernel.Frame
import proofs.«116623_j7164005449995_2_alg».proof.Proof.Gen.KernelIdeal
import proofs.«116623_j7164005449995_2_alg».proof.Proof.Gen.KernelIdeal.Skeleton
import proofs.«116623_j7164005449995_2_alg».proof.Proof.Gen.KernelIdeal.Launch
import proofs.«116623_j7164005449995_2_alg».proof.Proof.Gen.KernelIdeal.Points
import proofs.«116623_j7164005449995_2_alg».proof.Proof.Gen.KernelIdeal.Frame
import proofs.«116623_j7164005449995_2_alg».proof.Proof.Gen.ReferenceIdeal
import proofs.«116623_j7164005449995_2_alg».proof.Proof.Gen.Pre_finite_inputs
import proofs.«116623_j7164005449995_2_alg».proof.Proof.KernelValue
import proofs.«116623_j7164005449995_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- From memories that agree on the three arguments, the kernel's result is the weighted mean taken pair by pair
    (its bin-by-bin sum re-grouped) and so is the reference's. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v69_eq, Cert.ReferenceIdeal.RefValue.ref_value, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
